-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S5000x1 : Shape := ⟨2, ![5000, 1]⟩
abbrev S64x64 : Shape := ⟨2, ![64, 64]⟩
abbrev S100000x32 : Shape := ⟨2, ![100000, 32]⟩

abbrev nBuf : Space → Nat
  | .hbm => 91
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S_, .f32⟩
  | .hbm, ⟨82, _⟩ => ⟨S64, .f32⟩
  | .hbm, ⟨83, _⟩ => ⟨S1x64, .f32⟩
  | .hbm, ⟨84, _⟩ => ⟨S100000x64, .f32⟩
  | .hbm, ⟨85, _⟩ => ⟨S64x64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S100000x32, .f32⟩
  | .hbm, ⟨90, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S64 : S_.BroadcastsInDim S64 (![] : Fin 0 → Fin S64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S64x32_S64x32_S64x64_d1 : Shape.Concatenates [S64x32, S64x32] S64x64 1
  concatenates_S32_S32_S64_d0 : Shape.Concatenates [S32, S32] S64 0
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S100000x64_S100000x32_0_0 : S100000x64.Slices ![0, 0] S100000x32
  slices_S100000x64_S100000x32_0_32 : S100000x64.Slices ![0, 32] S100000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x32, .f32⟩
  | 98 => ⟨S1600000x1, .f32⟩
  | 99 => ⟨S1600000x32, .f32⟩
  | 100 => ⟨S1600000x32, .f32⟩
  | 101 => ⟨S_, .f32⟩
  | 102 => ⟨S100000x32, .f32⟩
  | 103 => ⟨S1600000x1, .i32⟩
  | 104 => ⟨S100000x32, .f32⟩
  | 105 => ⟨S100000, .f32⟩
  | 106 => ⟨S100000x1, .f32⟩
  | 107 => ⟨S100000x32, .f32⟩
  | 108 => ⟨S100000x32, .f32⟩
  | 109 => ⟨S100000x32, .f32⟩
  | 110 => ⟨S1x32, .f32⟩
  | 111 => ⟨S100000x32, .f32⟩
  | 112 => ⟨S100000x32, .f32⟩
  | 113 => ⟨S100000x32, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x32, .f32⟩
  | 14 => ⟨S1600000x1, .f32⟩
  | 15 => ⟨S1600000x32, .f32⟩
  | 16 => ⟨S1600000x32, .f32⟩
  | 17 => ⟨S_, .f32⟩
  | 18 => ⟨S100000x32, .f32⟩
  | 19 => ⟨S1600000x1, .i32⟩
  | 20 => ⟨S100000x32, .f32⟩
  | 21 => ⟨S100000, .f32⟩
  | 22 => ⟨S100000x1, .f32⟩
  | 23 => ⟨S100000x32, .f32⟩
  | 24 => ⟨S100000x32, .f32⟩
  | 25 => ⟨S100000x32, .f32⟩
  | 26 => ⟨S1x32, .f32⟩
  | 27 => ⟨S100000x32, .f32⟩
  | 28 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_v87 : Ref sig .tc := ⟨.hbm, 115, rfl⟩
abbrev main_v88 : Ref sig .tc := ⟨.hbm, 116, rfl⟩
abbrev main_c_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_19 : Ref sig .tc := ⟨.hbm, 133, rfl⟩
abbrev main_v102 : Ref sig .tc := ⟨.hbm, 134, rfl⟩
abbrev main_v103 : Ref sig .tc := ⟨.hbm, 135, rfl⟩
abbrev main_c_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_21 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KRun.lean ====
/-
  The kernel program's run with its two results named.

  @main of the kernel program is nine segments: five stretches of host operations around four kernel regions.
  The contents of every unscoped buffer at each segment boundary are a fold through the program (the boundary
  valuations `W0 … W9` of the frame module), and every weakly fair execution ends with each unscoped buffer at
  the last boundary's contents.  Read at the two result buffers and at the eight argument buffers this is the
  run the value claim needs: the results at `W9`, the arguments as launched.
-/
import proofs.«153036_j52716428591567_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the two result buffers at
    the last boundary's contents and the argument buffers as launched. -/
theorem run_values : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v66 (by decide)),
       h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunV

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Regions.lean ====
/-
  What each kernel region leaves in its output array, as one function of the arrays the region finds.

  A region's grid has twenty points; point `t` stages rows `5000 t … 5000 t + 4999` of each row-blocked operand and
  the whole of each small operand (a weight matrix, a bias row), runs the body, and writes the result block back to
  rows `5000 t … 5000 t + 4999` of the output array.  The body's result at row `p` of the block depends only on row
  `p` of the row-blocked operands, so the block is the restriction of one whole-array function, and the twenty
  blocks tile the output: the array ends holding that function.
-/
import proofs.«153036_j52716428591567_2_alg».proof.Proof.Gen.KernelIdeal.Frame
import proofs.«153036_j52716428591567_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegV

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The row number of a matrix index. -/
def row2 {a b : Nat} (i : (⟨2, ![a, b]⟩ : Shape).Idx) : Fin a := ⟨(i 0).val, (i 0).isLt⟩
/-- The column number of a matrix index. -/
def col2 {a b : Nat} (i : (⟨2, ![a, b]⟩ : Shape).Idx) : Fin b := ⟨(i 1).val, (i 1).isLt⟩

theorem row2_ix2 {a b : Nat} (p : Fin a) (q : Fin b) : row2 (ix2 p q) = p := rfl
theorem col2_ix2 {a b : Nat} (p : Fin a) (q : Fin b) : col2 (ix2 p q) = q := rfl

/-- A matrix product plus a bias row: entry `(n, j)` is `∑ k, x (n, k) · w (k, j) + b (0, j)`. -/
def mmBias {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (row2 i) k) * w (ix2 k (col2 i))) + b (ix2 0 (col2 i))

/-! ## Region 0: the first feature product -/

/-- The body's result at entry `(p, q)` of a block: row `p` of the left block against column `q` of the weights,
    plus the bias row's entry `q` (the roundings into the product are the identity on extended reals). -/
theorem pay0_apply (x0 : FVec Ideal S5000x128 .f32) (x1 : FVec Ideal S128x64 .f32) (x2 : FVec Ideal S1x64 .f32)
    (p : Fin 5000) (q : Fin 64) :
    k0_pay1 (F := Ideal) x0 x1 x2 (ix2 p q) = (∑ k : Fin 128, x0 (ix2 p k) * x1 (ix2 k q)) + x2 (ix2 0 q) := by
  unfold k0_pay1
  rw [addf_apply]
  congr 1
  · exact Cert.LibMatmulPlain.matmul_plain_zero_apply _ rfl none _ _ p q
  · rw [shapeCast_self]
    exact broadcastTo_1b_ab_apply _ _ p q

variable (V : (c : Dev nD) → (b : Ref sig .tc) → Buf (Elt Ideal) ((c : Thread nD τ).loc b))

/-- The printed index maps over the grid: the row-blocked windows sit at block `(t, 0)`, the small ones at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the left operand's block at point `t` is row `5000 t + p` of the array. -/
theorem blk0_0 (c : Dev nD) (t : Fin cfg0.N) (p : Fin 5000) (k : Fin 128) (n : Fin 100000) (hn : n.val = t.val * 5000 + p.val) :
    (iblk0 V c 0 t : FVec Ideal S5000x128 .f32) (ix2 p k) = (V c main_arg0 : S100000x128.Idx → EReal) (ix2 n k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * p.val = n.val; rw [e0, hn]; omega
  | ⟨1, _⟩ => show win0_0.index t 1 * 128 + 1 * k.val = k.val; rw [e1]; omega

/-- The weights' block at any point is the whole array. -/
theorem blk0_1 (c : Dev nD) (t : Fin cfg0.N) (k : Fin 128) (q : Fin 64) :
    (iblk0 V c 1 t : FVec Ideal S128x64 .f32) (ix2 k q) = (V c main_arg2 : S128x64.Idx → EReal) (ix2 k q) := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 64 + 1 * q.val = q.val; rw [e1]; omega

/-- The bias row's block at any point is the whole row. -/
theorem blk0_2 (c : Dev nD) (t : Fin cfg0.N) (q : Fin 64) :
    (iblk0 V c 2 t : FVec Ideal S1x64 .f32) (ix2 0 q) = (V c main_v29 : S1x64.Idx → EReal) (ix2 0 q) := by
  obtain ⟨-, -, -, -, e0, e1, -⟩ := idx0 t
  unfold iblk0
  rw [View.read_apply]
  show V c main_v29 _ = V c main_v29 _
  congr 1
  funext a
  apply Fin.ext
  match a with
  | ⟨0, _⟩ => show win0_2.index t 0 * 1 + 1 * 0 = 0; rw [e0]
  | ⟨1, _⟩ => show win0_2.index t 1 * 64 + 1 * q.val = q.val; rw [e1]; omega

/-- What point `t` writes back is block `t` of the product-plus-bias of the arrays the region finds. -/
theorem flushed0 (c : Dev nD) (t : Fin cfg0.N) :
    (dat0 V c).flushed 3 t = ((cfg0.win 3).blk t).view.read (Elt Ideal)
      (mmBias (M := 100000) (K := 128) (N := 64) (V c main_arg0) (V c main_arg2) (V c main_v29)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨-, -, -, -, -, -, e0, e1⟩ := idx0 t
  funext j
  have hj0 : (j 0).val < 5000 := (j 0).isLt
  have hj1 : (j 1).val < 64 := (j 1).isLt
  have ht : t.val < 20 := t.isLt
  have hj : (j : S5000x64.Idx) = ix2 (⟨(j 0).val, hj0⟩ : Fin 5000) (⟨(j 1).val, hj1⟩ : Fin 64) :=
    funext fun a => by match a with | ⟨0, _⟩ => rfl | ⟨1, _⟩ => rfl
  have hi : ((cfg0.win 3).blk t).view.emb j = ix2 (⟨t.val * 5000 + (j 0).val, by omega⟩ : Fin 100000) (⟨(j 1).val, hj1⟩ : Fin 64) := by
    funext a
    apply Fin.ext
    match a with
    | ⟨0, _⟩ => show win0_3.index t 0 * 5000 + 1 * (j 0).val = t.val * 5000 + (j 0).val; rw [e0]; omega
    | ⟨1, _⟩ => show win0_3.index t 1 * 64 + 1 * (j 1).val = (j 1).val; rw [e1]; omega
  show k0_pay1 (F := Ideal) (iblk0 V c 0 t) (iblk0 V c 1 t) (iblk0 V c 2 t) j = mmBias _ _ _ (((cfg0.win 3).blk t).view.emb j)
  rw [hi]
  refine (congrArg (k0_pay1 (F := Ideal) (iblk0 V c 0 t) (iblk0 V c 1 t) (iblk0 V c 2 t)) hj).trans ?_
  rw [pay0_apply]
  unfold mmBias
  rw [row2_ix2, col2_ix2, blk0_2 V c t]
  congr 1
  refine Finset.sum_congr rfl fun k _ => ?_
  rw [blk0_0 V c t ⟨(j 0).val, hj0⟩ k ⟨t.val * 5000 + (j 0).val, by omega⟩ rfl, blk0_1 V c t k]

/-- An index of the output array is in point `t`'s block iff its row is among the block's rows. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v30).slice (win0_3.rect t)).set ↔ _
  rw [View.set_slice_whole, Rect.mem_set_unit]
  exact Iff.rfl

/-- The twenty blocks tile the output array: row `r` is in block `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 5000, by show (i 0).val / 5000 < 20; omega⟩, flush0_3 _, ?_⟩
  rw [mem_blk0]
  obtain ⟨-, -, -, -, -, -, e0, e1⟩ := idx0 ⟨(i 0).val / 5000, by show (i 0).val / 5000 < 20; omega⟩
  intro a
  match a with
  | ⟨0, _⟩ => show win0_3.index _ 0 * 5000 ≤ (i 0).val ∧ (i 0).val < win0_3.index _ 0 * 5000 + 5000; rw [e0]; show (i 0).val / 5000 * 5000 ≤ _ ∧ _ < (i 0).val / 5000 * 5000 + 5000; omega
  | ⟨1, _⟩ => show win0_3.index _ 1 * 64 ≤ (i 1).val ∧ (i 1).val < win0_3.index _ 1 * 64 + 64; rw [e1]; omega

/-- Region 0's output array after the region: the product of the two arrays it finds, plus the bias row. -/
theorem final0 (c : Dev nD) : (dat0 V c).arrAt 3 cfg0.N
    = mmBias (M := 100000) (K := 128) (N := 64) (V c main_arg0) (V c main_arg2) (V c main_v29) :=
  (dat0 V c).arrAt_eq_of_cover 3 _ (fun t _ => flushed0 V c t) cover0

end Cert.KernelIdeal.RegV

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.ChainA.lean ====
/-
  The kernel program's buffers up to the end of its first region, read back to the program's arguments.

  The first stretch of host operations computes, from the edge array alone, the source and destination words,
  the wrapped source and destination numbers, the inverse square roots of the degrees and their squares, and
  the edge coefficients: the same operations, in the same order, as the reference program's, so each buffer
  holds the reference's stage of the same name.  The first region then multiplies the node features by the
  first weight matrix (plus a zero bias row): the reference's first matrix product.
-/
import proofs.«153036_j52716428591567_2_alg».proof.Proof.Gen.KernelIdeal.Frame
import proofs.«153036_j52716428591567_2_alg».proof.Proof.Gen.ReferenceIdeal.Read
import proofs.«153036_j52716428591567_2_alg».proof.Proof.Regions
import proofs.«153036_j52716428591567_2_alg».proof.Proof.LibHostBroadcast
import Idealize.ShloMosaic.Lib.StableHlo.Run
import Idealize.ShloMosaic.Lib.ValueLayout

set_option maxRecDepth 16384

noncomputable section

open scoped BigOperators

namespace Cert.KernelIdeal.ChainV

open Cert.KernelIdeal Cert.KernelIdeal.Gen Cert.KernelIdeal.RegV
open Idealize.ShloMosaic Idealize.ShloMosaic.TcCoe Idealize.SL.Sem Idealize.ShloMosaic.ValueIdx Idealize.ShloMosaic.StableHlo
open Cert.ReferenceIdeal.Read (val_main_v1 val_main_v3 val_main_v10 val_main_v11 val_main_v16 val_main_v23 val_main_v26 val_main_v39 val_main_v40 val_main_v48)

variable (m : (ℓ : Loc nD τ sig) → Buf (Elt Ideal) ℓ) (ρ : Dev nD → PrngReg) (c : Dev nD)

/-! ## After the first stretch -/

theorem s0_v1 : W1 m ρ c (Proc.devRef .tc main_v1) = val_main_v1 (F := Ideal) (m ((c : Thread nD τ).loc main_arg1)) := by
  show StableHlo.after hostOps0 (W0 m ρ c) (Proc.devRef .tc main_v1) = _
  after_results_simp <;> rfl

theorem s0_v3 : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

/-- The edge coefficients. -/
theorem s0_v27 : W1 m ρ c (Proc.devRef .tc main_v27) = val_main_v26 (F := Ideal) (m ((c : Thread nD τ).loc main_arg1)) := by
  show StableHlo.after hostOps0 (W0 m ρ c) (Proc.devRef .tc main_v27) = _
  after_results_simp <;> rfl

/-- The squared inverse square roots of the degrees, as a column. -/
theorem s0_v12 : W1 m ρ c (Proc.devRef .tc main_v12)
    = shapeCast S100000x1 (val_main_v40 (F := Ideal) (m ((c : Thread nD τ).loc main_arg1))) shapeCasts_S100000_S100000x1 := by
  show StableHlo.after hostOps0 (W0 m ρ c) (Proc.devRef .tc main_v12) = _
  after_results_simp <;> rfl

/-- The zero bias row of the first region. -/
theorem s0_v29 : W1 m ρ c (Proc.devRef .tc main_v29)
    = shapeCast S1x64 (broadcastInDim S64 ![] bcast_S_S64 (constant (F := Ideal) S_ .f32 0x00000000#32)) shapeCasts_S64_S1x64 := by
  show StableHlo.after hostOps0 (W0 m ρ c) (Proc.devRef .tc main_v29) = _
  after_results_simp <;> rfl

/-- No operation of the first stretch writes an argument. -/
theorem s0_arg (b : Ref sig .tc) (hb : b = main_arg0 ∨ b = main_arg2 ∨ b = main_arg3 ∨ b = main_arg4 ∨ b = main_arg5 ∨ b = main_arg6 ∨ b = main_arg7) :
    W1 m ρ c (Proc.devRef .tc b) = m ((c : Thread nD τ).loc b) := by
  show StableHlo.after hostOps0 (W0 m ρ c) (Proc.devRef .tc b) = _
  rcases hb with rfl | rfl | rfl | rfl | rfl | rfl | rfl <;> (after_results_simp <;> rfl)

/-! ## After the first region -/

/-- The first region leaves the product of the arrays it finds, plus its bias row. -/
theorem r0_v30 : W2 m ρ c (Proc.devRef .tc main_v30)
    = mmBias (M := 100000) (K := 128) (N := 64) (W1 m ρ c (Proc.devRef .tc main_arg0)) (W1 m ρ c (Proc.devRef .tc main_arg2)) (W1 m ρ c (Proc.devRef .tc main_v29)) :=
  (W2_arr m ρ c 3).trans (final0 (V1 m ρ) c)

/-- The first region's output is the reference's first matrix product. -/
theorem P_eq : W2 m ρ c (Proc.devRef .tc main_v30) = val_main_v11 (F := Ideal) (m ((c : Thread nD τ).loc main_arg0)) (m ((c : Thread nD τ).loc main_arg2)) := by
  rw [r0_v30, s0_arg m ρ c main_arg0 (Or.inl rfl), s0_arg m ρ c main_arg2 (Or.inr (Or.inl rfl)), s0_v29]
  funext i
  obtain ⟨n, k, rfl⟩ : ∃ (n : Fin 100000) (k : Fin 64), i = ix2 n k := ⟨i 0, i 1, eq_ix2 i⟩
  rw [Cert.ReferenceIdeal.Read.val_main_v11_apply]
  unfold mmBias
  rw [row2_ix2, col2_ix2, shapeCast_a_1a_apply, Cert.LibHostBroadcast.bcast_scalar_apply, constant_apply, Ideal.ofBits_zero_f32, add_zero]
  refine Finset.sum_congr rfl fun j _ => ?_
  have el : Cert.ReferenceIdeal.Read.lidx_main_v11 (ix2 n k) j = ix2 n j :=
    funext fun a => Fin.ext (by match a with | ⟨0, _⟩ => rfl | ⟨1, _⟩ => rfl)
  have er : Cert.ReferenceIdeal.Read.ridx_main_v11 (ix2 n k) j = ix2 j k :=
    funext fun a => Fin.ext (by match a with | ⟨0, _⟩ => rfl | ⟨1, _⟩ => rfl)
  rw [el, er]

/-- The first region writes only its own output. -/
theorem c2 (b : Ref sig .tc) (hb : b = main_v1 ∨ b = main_v3 ∨ b = main_v27 ∨ b = main_v12 ∨ b = main_arg3 ∨ b = main_arg4 ∨ b = main_arg5 ∨ b = main_arg6 ∨ b = main_arg7) :
    W2 m ρ c (Proc.devRef .tc b) = W1 m ρ c (Proc.devRef .tc b) := by
  rcases hb with rfl | rfl | rfl | rfl | rfl | rfl | rfl | rfl | rfl <;> exact W2_of_ne m ρ c _ (by decide)

end Cert.KernelIdeal.ChainV

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.RegionsB.lean ====
/-
  What the second, third and fourth kernel regions leave in their output arrays, each as one function of the
  arrays the region finds.

  As for the first region: the grid has twenty points; point `t` stages rows `5000 t … 5000 t + 4999` of each
  row-blocked operand (a matrix of 64 columns, or the one-column matrix of row weights) and the whole of each
  small operand (a weight matrix, a bias row), runs the body, and writes the result block back to the same rows
  of the output array. The body's result at row `p` of the block depends only on row `p` of the row-blocked
  operands, so the block is the restriction of one whole-array function, and the twenty blocks tile the output.
-/
import proofs.«153036_j52716428591567_2_alg».proof.Proof.Regions
import proofs.«153036_j52716428591567_2_alg».proof.Proof.LibColumns

set_option maxRecDepth 16384

noncomputable section

open scoped BigOperators

namespace Cert.KernelIdeal.RegV

open Cert.KernelIdeal Cert.KernelIdeal.Gen
open Idealize.ShloMosaic Idealize.ShloMosaic.TcCoe Idealize.SL.Sem Idealize.ShloMosaic.ValueIdx
open Idealize.ShloMosaic.Pipeline (Dat)

/-- The aggregate plus the self term plus the bias row, clipped below at zero. -/
def combRelu (A P : (⟨2, ![100000, 64]⟩ : Shape).Idx → EReal) (d : (⟨2, ![100000, 1]⟩ : Shape).Idx → EReal)
    (b : (⟨2, ![1, 64]⟩ : Shape).Idx → EReal) : (⟨2, ![100000, 64]⟩ : Shape).Idx → EReal :=
  fun i => max ((A i + P i * d (ix2 (row2 i) 0)) + b (ix2 0 (col2 i))) 0

/-- The aggregate plus the self term plus the bias row. -/
def comb (A P : (⟨2, ![100000, 64]⟩ : Shape).Idx → EReal) (d : (⟨2, ![100000, 1]⟩ : Shape).Idx → EReal)
    (b : (⟨2, ![1, 64]⟩ : Shape).Idx → EReal) : (⟨2, ![100000, 64]⟩ : Shape).Idx → EReal :=
  fun i => (A i + P i * d (ix2 (row2 i) 0)) + b (ix2 0 (col2 i))

/-! # The bodies' results at an entry -/

/-! ## Region 1: the aggregate, the self term and the bias row combined, clipped at zero -/

/-- The body's result at entry `(p, q)` of a block: the aggregate's entry plus the self term's entry times the
    row's weight, plus the bias row's entry `q`, clipped below at zero. -/
theorem pay1_apply (x0 x1 : FVec Ideal S5000x64 .f32) (x2 : FVec Ideal S5000x1 .f32) (x3 : FVec Ideal S1x64 .f32)
    (p : Fin 5000) (q : Fin 64) :
    k1_pay1 (F := Ideal) x0 x1 x2 x3 (ix2 p q)
      = max ((x0 (ix2 p q) + x1 (ix2 p q) * x2 (ix2 p 0)) + x3 (ix2 0 q)) 0 := by
  unfold k1_pay1
  rw [maximumf_apply, addf_apply, addf_apply, mulf_apply]
  simp only [shapeCast_self]
  rw [Cert.Columns.broadcastTo_a1_ab_apply, broadcastTo_1b_ab_apply]
  rw [broadcast_apply]
  show max _ (Ideal.ofBits .f32 0x00000000#32) = _
  rw [Ideal.ofBits_zero_f32]

/-! ## Region 2: the aggregate, the self term and the bias row combined -/

/-- The body's result at entry `(p, q)` of a block: the aggregate's entry plus the self term's entry times the
    row's weight, plus the bias row's entry `q`. -/
theorem pay2_apply (x0 x1 : FVec Ideal S5000x64 .f32) (x2 : FVec Ideal S5000x1 .f32) (x3 : FVec Ideal S1x64 .f32)
    (p : Fin 5000) (q : Fin 64) :
    k2_pay1 (F := Ideal) x0 x1 x2 x3 (ix2 p q)
      = (x0 (ix2 p q) + x1 (ix2 p q) * x2 (ix2 p 0)) + x3 (ix2 0 q) := by
  unfold k2_pay1
  rw [addf_apply, addf_apply, mulf_apply]
  simp only [shapeCast_self]
  rw [Cert.Columns.broadcastTo_a1_ab_apply, broadcastTo_1b_ab_apply]

/-! ## Region 3: the second-layer feature product -/

/-- The body's result at entry `(p, q)` of a block: row `p` of the left block against column `q` of the weights,
    plus the bias row's entry `q` (the roundings into the product are the identity on extended reals). -/
theorem pay3_apply (x0 : FVec Ideal S5000x64 .f32) (x1 : FVec Ideal S64x64 .f32) (x2 : FVec Ideal S1x64 .f32)
    (p : Fin 5000) (q : Fin 64) :
    k3_pay1 (F := Ideal) x0 x1 x2 (ix2 p q) = (∑ k : Fin 64, x0 (ix2 p k) * x1 (ix2 k q)) + x2 (ix2 0 q) := by
  unfold k3_pay1
  rw [addf_apply]
  simp only [shapeCast_self]
  congr 1
  · exact Cert.LibMatmulPlain.matmul_plain_zero_apply _ rfl none _ _ p q
  · exact broadcastTo_1b_ab_apply _ _ p q

variable (V : (c : Dev nD) → (b : Ref sig .tc) → Buf (Elt Ideal) ((c : Thread nD τ).loc b))

/-! # Region 1: blocks, the written block, the tiling -/

/-- The printed index maps over the grid: the row-blocked windows sit at block `(t, 0)`, the bias row's at `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the aggregate's block at point `t` is row `5000 t + p` of the array. -/
theorem blk1_0 (c : Dev nD) (t : Fin cfg1.N) (p : Fin 5000) (k : Fin 64) (n : Fin 100000) (hn : n.val = t.val * 5000 + p.val) :
    (iblk1 V c 0 t : FVec Ideal S5000x64 .f32) (ix2 p k) = (V c main_v43 : S100000x64.Idx → EReal) (ix2 n k) := by
  obtain ⟨e0, e1, -⟩ := idx1 t
  unfold iblk1
  rw [View.read_apply]
  show V c main_v43 _ = V c main_v43 _
  congr 1
  funext a
  apply Fin.ext
  match a with
  | ⟨0, _⟩ => show win1_0.index t 0 * 5000 + 1 * p.val = n.val; rw [e0, hn]; omega
  | ⟨1, _⟩ => show win1_0.index t 1 * 64 + 1 * k.val = k.val; rw [e1]; omega

/-- Row `p` of the self term's block at point `t` is row `5000 t + p` of the array. -/
theorem blk1_1 (c : Dev nD) (t : Fin cfg1.N) (p : Fin 5000) (k : Fin 64) (n : Fin 100000) (hn : n.val = t.val * 5000 + p.val) :
    (iblk1 V c 1 t : FVec Ideal S5000x64 .f32) (ix2 p k) = (V c main_v30 : S100000x64.Idx → EReal) (ix2 n k) := by
  obtain ⟨-, -, e0, e1, -⟩ := idx1 t
  unfold iblk1
  rw [View.read_apply]
  show V c main_v30 _ = V c main_v30 _
  congr 1
  funext a
  apply Fin.ext
  match a with
  | ⟨0, _⟩ => show win1_1.index t 0 * 5000 + 1 * p.val = n.val; rw [e0, hn]; omega
  | ⟨1, _⟩ => show win1_1.index t 1 * 64 + 1 * k.val = k.val; rw [e1]; omega

/-- Entry `p` of the row weights' block at point `t` is entry `5000 t + p` of the column. -/
theorem blk1_2 (c : Dev nD) (t : Fin cfg1.N) (p : Fin 5000) (n : Fin 100000) (hn : n.val = t.val * 5000 + p.val) :
    (iblk1 V c 2 t : FVec Ideal S5000x1 .f32) (ix2 p 0) = (V c main_v12 : S100000x1.Idx → EReal) (ix2 n 0) := by
  obtain ⟨-, -, -, -, e0, e1, -⟩ := idx1 t
  unfold iblk1
  rw [View.read_apply]
  show V c main_v12 _ = V c main_v12 _
  congr 1
  funext a
  apply Fin.ext
  match a with
  | ⟨0, _⟩ => show win1_2.index t 0 * 5000 + 1 * p.val = n.val; rw [e0, hn]; omega
  | ⟨1, _⟩ => show win1_2.index t 1 * 1 + 1 * 0 = 0; rw [e1]

/-- The bias row's block at any point is the whole row. -/
theorem blk1_3 (c : Dev nD) (t : Fin cfg1.N) (q : Fin 64) :
    (iblk1 V c 3 t : FVec Ideal S1x64 .f32) (ix2 0 q) = (V c main_v44 : S1x64.Idx → EReal) (ix2 0 q) := by
  obtain ⟨-, -, -, -, -, -, e0, e1, -⟩ := idx1 t
  unfold iblk1
  rw [View.read_apply]
  show V c main_v44 _ = V c main_v44 _
  congr 1
  funext a
  apply Fin.ext
  match a with
  | ⟨0, _⟩ => show win1_3.index t 0 * 1 + 1 * 0 = 0; rw [e0]
  | ⟨1, _⟩ => show win1_3.index t 1 * 64 + 1 * q.val = q.val; rw [e1]; omega

/-- What point `t` writes back is block `t` of the combination of the arrays the region finds. -/
theorem flushed1 (c : Dev nD) (t : Fin cfg1.N) :
    (dat1 V c).flushed 4 t = ((cfg1.win 4).blk t).view.read (Elt Ideal)
      (combRelu (V c main_v43) (V c main_v30) (V c main_v12) (V c main_v44)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨-, -, -, -, -, -, -, -, e0, e1⟩ := idx1 t
  funext j
  have hj0 : (j 0).val < 5000 := (j 0).isLt
  have hj1 : (j 1).val < 64 := (j 1).isLt
  have ht : t.val < 20 := t.isLt
  have hj : (j : S5000x64.Idx) = ix2 (⟨(j 0).val, hj0⟩ : Fin 5000) (⟨(j 1).val, hj1⟩ : Fin 64) :=
    funext fun a => by match a with | ⟨0, _⟩ => rfl | ⟨1, _⟩ => rfl
  have hi : ((cfg1.win 4).blk t).view.emb j = ix2 (⟨t.val * 5000 + (j 0).val, by omega⟩ : Fin 100000) (⟨(j 1).val, hj1⟩ : Fin 64) := by
    funext a
    apply Fin.ext
    match a with
    | ⟨0, _⟩ => show win1_4.index t 0 * 5000 + 1 * (j 0).val = t.val * 5000 + (j 0).val; rw [e0]; omega
    | ⟨1, _⟩ => show win1_4.index t 1 * 64 + 1 * (j 1).val = (j 1).val; rw [e1]; omega
  show k1_pay1 (F := Ideal) (iblk1 V c 0 t) (iblk1 V c 1 t) (iblk1 V c 2 t) (iblk1 V c 3 t) j
    = combRelu _ _ _ _ (((cfg1.win 4).blk t).view.emb j)
  rw [hi]
  refine (congrArg (k1_pay1 (F := Ideal) (iblk1 V c 0 t) (iblk1 V c 1 t) (iblk1 V c 2 t) (iblk1 V c 3 t)) hj).trans ?_
  rw [pay1_apply]
  unfold combRelu
  rw [row2_ix2, col2_ix2, blk1_3 V c t,
    blk1_0 V c t ⟨(j 0).val, hj0⟩ ⟨(j 1).val, hj1⟩ ⟨t.val * 5000 + (j 0).val, by omega⟩ rfl,
    blk1_1 V c t ⟨(j 0).val, hj0⟩ ⟨(j 1).val, hj1⟩ ⟨t.val * 5000 + (j 0).val, by omega⟩ rfl,
    blk1_2 V c t ⟨(j 0).val, hj0⟩ ⟨t.val * 5000 + (j 0).val, by omega⟩ rfl]

/-- An index of the output array is in point `t`'s block iff its row is among the block's rows. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v45).slice (win1_4.rect t)).set ↔ _
  rw [View.set_slice_whole, Rect.mem_set_unit]
  exact Iff.rfl

/-- The twenty blocks tile the output array: row `r` is in block `r / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by show (i 0).val / 5000 < 20; omega⟩, flush1_4 _, ?_⟩
  rw [mem_blk1]
  obtain ⟨-, -, -, -, -, -, -, -, e0, e1⟩ := idx1 ⟨(i 0).val / 5000, by show (i 0).val / 5000 < 20; omega⟩
  intro a
  match a with
  | ⟨0, _⟩ => show win1_4.index _ 0 * 5000 ≤ (i 0).val ∧ (i 0).val < win1_4.index _ 0 * 5000 + 5000; rw [e0]; show (i 0).val / 5000 * 5000 ≤ _ ∧ _ < (i 0).val / 5000 * 5000 + 5000; omega
  | ⟨1, _⟩ => show win1_4.index _ 1 * 64 ≤ (i 1).val ∧ (i 1).val < win1_4.index _ 1 * 64 + 64; rw [e1]; omega

/-- Region 1's output array after the region: the combination of the four arrays it finds. -/
theorem final1 (c : Dev nD) : (dat1 V c).arrAt 4 cfg1.N
    = combRelu (V c main_v43) (V c main_v30) (V c main_v12) (V c main_v44) :=
  (dat1 V c).arrAt_eq_of_cover 4 _ (fun t _ => flushed1 V c t) cover1

/-! # Region 2: blocks, the written block, the tiling -/

/-- The printed index maps over the grid: the row-blocked windows sit at block `(t, 0)`, the bias row's at `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the aggregate's block at point `t` is row `5000 t + p` of the array. -/
theorem blk2_0 (c : Dev nD) (t : Fin cfg2.N) (p : Fin 5000) (k : Fin 64) (n : Fin 100000) (hn : n.val = t.val * 5000 + p.val) :
    (iblk2 V c 0 t : FVec Ideal S5000x64 .f32) (ix2 p k) = (V c main_v58 : S100000x64.Idx → EReal) (ix2 n k) := by
  obtain ⟨e0, e1, -⟩ := idx2 t
  unfold iblk2
  rw [View.read_apply]
  show V c main_v58 _ = V c main_v58 _
  congr 1
  funext a
  apply Fin.ext
  match a with
  | ⟨0, _⟩ => show win2_0.index t 0 * 5000 + 1 * p.val = n.val; rw [e0, hn]; omega
  | ⟨1, _⟩ => show win2_0.index t 1 * 64 + 1 * k.val = k.val; rw [e1]; omega

/-- Row `p` of the self term's block at point `t` is row `5000 t + p` of the array. -/
theorem blk2_1 (c : Dev nD) (t : Fin cfg2.N) (p : Fin 5000) (k : Fin 64) (n : Fin 100000) (hn : n.val = t.val * 5000 + p.val) :
    (iblk2 V c 1 t : FVec Ideal S5000x64 .f32) (ix2 p k) = (V c main_v45 : S100000x64.Idx → EReal) (ix2 n k) := by
  obtain ⟨-, -, e0, e1, -⟩ := idx2 t
  unfold iblk2
  rw [View.read_apply]
  show V c main_v45 _ = V c main_v45 _
  congr 1
  funext a
  apply Fin.ext
  match a with
  | ⟨0, _⟩ => show win2_1.index t 0 * 5000 + 1 * p.val = n.val; rw [e0, hn]; omega
  | ⟨1, _⟩ => show win2_1.index t 1 * 64 + 1 * k.val = k.val; rw [e1]; omega

/-- Entry `p` of the row weights' block at point `t` is entry `5000 t + p` of the column. -/
theorem blk2_2 (c : Dev nD) (t : Fin cfg2.N) (p : Fin 5000) (n : Fin 100000) (hn : n.val = t.val * 5000 + p.val) :
    (iblk2 V c 2 t : FVec Ideal S5000x1 .f32) (ix2 p 0) = (V c main_v12 : S100000x1.Idx → EReal) (ix2 n 0) := by
  obtain ⟨-, -, -, -, e0, e1, -⟩ := idx2 t
  unfold iblk2
  rw [View.read_apply]
  show V c main_v12 _ = V c main_v12 _
  congr 1
  funext a
  apply Fin.ext
  match a with
  | ⟨0, _⟩ => show win2_2.index t 0 * 5000 + 1 * p.val = n.val; rw [e0, hn]; omega
  | ⟨1, _⟩ => show win2_2.index t 1 * 1 + 1 * 0 = 0; rw [e1]

/-- The bias row's block at any point is the whole row. -/
theorem blk2_3 (c : Dev nD) (t : Fin cfg2.N) (q : Fin 64) :
    (iblk2 V c 3 t : FVec Ideal S1x64 .f32) (ix2 0 q) = (V c main_v60 : S1x64.Idx → EReal) (ix2 0 q) := by
  obtain ⟨-, -, -, -, -, -, e0, e1, -⟩ := idx2 t
  unfold iblk2
  rw [View.read_apply]
  show V c main_v60 _ = V c main_v60 _
  congr 1
  funext a
  apply Fin.ext
  match a with
  | ⟨0, _⟩ => show win2_3.index t 0 * 1 + 1 * 0 = 0; rw [e0]
  | ⟨1, _⟩ => show win2_3.index t 1 * 64 + 1 * q.val = q.val; rw [e1]; omega

/-- What point `t` writes back is block `t` of the combination of the arrays the region finds. -/
theorem flushed2 (c : Dev nD) (t : Fin cfg2.N) :
    (dat2 V c).flushed 4 t = ((cfg2.win 4).blk t).view.read (Elt Ideal)
      (comb (V c main_v58) (V c main_v45) (V c main_v12) (V c main_v60)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  obtain ⟨-, -, -, -, -, -, -, -, e0, e1⟩ := idx2 t
  funext j
  have hj0 : (j 0).val < 5000 := (j 0).isLt
  have hj1 : (j 1).val < 64 := (j 1).isLt
  have ht : t.val < 20 := t.isLt
  have hj : (j : S5000x64.Idx) = ix2 (⟨(j 0).val, hj0⟩ : Fin 5000) (⟨(j 1).val, hj1⟩ : Fin 64) :=
    funext fun a => by match a with | ⟨0, _⟩ => rfl | ⟨1, _⟩ => rfl
  have hi : ((cfg2.win 4).blk t).view.emb j = ix2 (⟨t.val * 5000 + (j 0).val, by omega⟩ : Fin 100000) (⟨(j 1).val, hj1⟩ : Fin 64) := by
    funext a
    apply Fin.ext
    match a with
    | ⟨0, _⟩ => show win2_4.index t 0 * 5000 + 1 * (j 0).val = t.val * 5000 + (j 0).val; rw [e0]; omega
    | ⟨1, _⟩ => show win2_4.index t 1 * 64 + 1 * (j 1).val = (j 1).val; rw [e1]; omega
  show k2_pay1 (F := Ideal) (iblk2 V c 0 t) (iblk2 V c 1 t) (iblk2 V c 2 t) (iblk2 V c 3 t) j
    = comb _ _ _ _ (((cfg2.win 4).blk t).view.emb j)
  rw [hi]
  refine (congrArg (k2_pay1 (F := Ideal) (iblk2 V c 0 t) (iblk2 V c 1 t) (iblk2 V c 2 t) (iblk2 V c 3 t)) hj).trans ?_
  rw [pay2_apply]
  unfold comb
  rw [row2_ix2, col2_ix2, blk2_3 V c t,
    blk2_0 V c t ⟨(j 0).val, hj0⟩ ⟨(j 1).val, hj1⟩ ⟨t.val * 5000 + (j 0).val, by omega⟩ rfl,
    blk2_1 V c t ⟨(j 0).val, hj0⟩ ⟨(j 1).val, hj1⟩ ⟨t.val * 5000 + (j 0).val, by omega⟩ rfl,
    blk2_2 V c t ⟨(j 0).val, hj0⟩ ⟨t.val * 5000 + (j 0).val, by omega⟩ rfl]

/-- An index of the output array is in point `t`'s block iff its row is among the block's rows. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v61).slice (win2_4.rect t)).set ↔ _
  rw [View.set_slice_whole, Rect.mem_set_unit]
  exact Iff.rfl

/-- The twenty blocks tile the output array: row `r` is in block `r / 5000`. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  refine ⟨⟨(i 0).val / 5000, by show (i 0).val / 5000 < 20; omega⟩, flush2_4 _, ?_⟩
  rw [mem_blk2]
  obtain ⟨-, -, -, -, -, -, -, -, e0, e1⟩ := idx2 ⟨(i 0).val / 5000, by show (i 0).val / 5000 < 20; omega⟩
  intro a
  match a with
  | ⟨0, _⟩ => show win2_4.index _ 0 * 5000 ≤ (i 0).val ∧ (i 0).val < win2_4.index _ 0 * 5000 + 5000; rw [e0]; show (i 0).val / 5000 * 5000 ≤ _ ∧ _ < (i 0).val / 5000 * 5000 + 5000; omega
  | ⟨1, _⟩ => show win2_4.index _ 1 * 64 ≤ (i 1).val ∧ (i 1).val < win2_4.index _ 1 * 64 + 64; rw [e1]; omega

/-- Region 2's output array after the region: the combination of the four arrays it finds. -/
theorem final2 (c : Dev nD) : (dat2 V c).arrAt 4 cfg2.N
    = comb (V c main_v58) (V c main_v45) (V c main_v12) (V c main_v60) :=
  (dat2 V c).arrAt_eq_of_cover 4 _ (fun t _ => flushed2 V c t) cover2

/-! # Region 3: blocks, the written block, the tiling -/

/-- The printed index maps over the grid: the row-blocked windows sit at block `(t, 0)`, the small ones at `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the left operand's block at point `t` is row `5000 t + p` of the array. -/
theorem blk3_0 (c : Dev nD) (t : Fin cfg3.N) (p : Fin 5000) (k : Fin 64) (n : Fin 100000) (hn : n.val = t.val * 5000 + p.val) :
    (iblk3 V c 0 t : FVec Ideal S5000x64 .f32) (ix2 p k) = (V c main_v61 : S100000x64.Idx → EReal) (ix2 n k) := by
  obtain ⟨e0, e1, -⟩ := idx3 t
  unfold iblk3
  rw [View.read_apply]
  show V c main_v61 _ = V c main_v61 _
  congr 1
  funext a
  apply Fin.ext
  match a with
  | ⟨0, _⟩ => show win3_0.index t 0 * 5000 + 1 * p.val = n.val; rw [e0, hn]; omega
  | ⟨1, _⟩ => show win3_0.index t 1 * 64 + 1 * k.val = k.val; rw [e1]; omega

/-- The weights' block at any point is the whole array. -/
theorem blk3_1 (c : Dev nD) (t : Fin cfg3.N) (k : Fin 64) (q : Fin 64) :
    (iblk3 V c 1 t : FVec Ideal S64x64 .f32) (ix2 k q) = (V c main_v62 : S64x64.Idx → EReal) (ix2 k q) := by
  obtain ⟨-, -, e0, e1, -⟩ := idx3 t
  unfold iblk3
  rw [View.read_apply]
  show V c main_v62 _ = V c main_v62 _
  congr 1
  funext a
  apply Fin.ext
  match a with
  | ⟨0, _⟩ => show win3_1.index t 0 * 64 + 1 * k.val = k.val; rw [e0]; omega
  | ⟨1, _⟩ => show win3_1.index t 1 * 64 + 1 * q.val = q.val; rw [e1]; omega

/-- The bias row's block at any point is the whole row. -/
theorem blk3_2 (c : Dev nD) (t : Fin cfg3.N) (q : Fin 64) :
    (iblk3 V c 2 t : FVec Ideal S1x64 .f32) (ix2 0 q) = (V c main_v64 : S1x64.Idx → EReal) (ix2 0 q) := by
  obtain ⟨-, -, -, -, e0, e1, -⟩ := idx3 t
  unfold iblk3
  rw [View.read_apply]
  show V c main_v64 _ = V c main_v64 _
  congr 1
  funext a
  apply Fin.ext
  match a with
  | ⟨0, _⟩ => show win3_2.index t 0 * 1 + 1 * 0 = 0; rw [e0]
  | ⟨1, _⟩ => show win3_2.index t 1 * 64 + 1 * q.val = q.val; rw [e1]; omega

/-- What point `t` writes back is block `t` of the product-plus-bias of the arrays the region finds. -/
theorem flushed3 (c : Dev nD) (t : Fin cfg3.N) :
    (dat3 V c).flushed 3 t = ((cfg3.win 3).blk t).view.read (Elt Ideal)
      (mmBias (M := 100000) (K := 64) (N := 64) (V c main_v61) (V c main_v62) (V c main_v64)) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz, View.ld_unit_zero (S := S1x64) hz]
  obtain ⟨-, -, -, -, -, -, e0, e1⟩ := idx3 t
  funext j
  have hj0 : (j 0).val < 5000 := (j 0).isLt
  have hj1 : (j 1).val < 64 := (j 1).isLt
  have ht : t.val < 20 := t.isLt
  have hj : (j : S5000x64.Idx) = ix2 (⟨(j 0).val, hj0⟩ : Fin 5000) (⟨(j 1).val, hj1⟩ : Fin 64) :=
    funext fun a => by match a with | ⟨0, _⟩ => rfl | ⟨1, _⟩ => rfl
  have hi : ((cfg3.win 3).blk t).view.emb j = ix2 (⟨t.val * 5000 + (j 0).val, by omega⟩ : Fin 100000) (⟨(j 1).val, hj1⟩ : Fin 64) := by
    funext a
    apply Fin.ext
    match a with
    | ⟨0, _⟩ => show win3_3.index t 0 * 5000 + 1 * (j 0).val = t.val * 5000 + (j 0).val; rw [e0]; omega
    | ⟨1, _⟩ => show win3_3.index t 1 * 64 + 1 * (j 1).val = (j 1).val; rw [e1]; omega
  show k3_pay1 (F := Ideal) (iblk3 V c 0 t) (iblk3 V c 1 t) (iblk3 V c 2 t) j = mmBias _ _ _ (((cfg3.win 3).blk t).view.emb j)
  rw [hi]
  refine (congrArg (k3_pay1 (F := Ideal) (iblk3 V c 0 t) (iblk3 V c 1 t) (iblk3 V c 2 t)) hj).trans ?_
  rw [pay3_apply]
  unfold mmBias
  rw [row2_ix2, col2_ix2, blk3_2 V c t]
  congr 1
  refine Finset.sum_congr rfl fun k _ => ?_
  rw [blk3_0 V c t ⟨(j 0).val, hj0⟩ k ⟨t.val * 5000 + (j 0).val, by omega⟩ rfl, blk3_1 V c t k]

/-- An index of the output array is in point `t`'s block iff its row is among the block's rows. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v65).slice (win3_3.rect t)).set ↔ _
  rw [View.set_slice_whole, Rect.mem_set_unit]
  exact Iff.rfl

/-- The twenty blocks tile the output array: row `r` is in block `r / 5000`. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  refine ⟨⟨(i 0).val / 5000, by show (i 0).val / 5000 < 20; omega⟩, flush3_3 _, ?_⟩
  rw [mem_blk3]
  obtain ⟨-, -, -, -, -, -, e0, e1⟩ := idx3 ⟨(i 0).val / 5000, by show (i 0).val / 5000 < 20; omega⟩
  intro a
  match a with
  | ⟨0, _⟩ => show win3_3.index _ 0 * 5000 ≤ (i 0).val ∧ (i 0).val < win3_3.index _ 0 * 5000 + 5000; rw [e0]; show (i 0).val / 5000 * 5000 ≤ _ ∧ _ < (i 0).val / 5000 * 5000 + 5000; omega
  | ⟨1, _⟩ => show win3_3.index _ 1 * 64 ≤ (i 1).val ∧ (i 1).val < win3_3.index _ 1 * 64 + 64; rw [e1]; omega

/-- Region 3's output array after the region: the product of the two arrays it finds, plus the bias row. -/
theorem final3 (c : Dev nD) : (dat3 V c).arrAt 3 cfg3.N
    = mmBias (M := 100000) (K := 64) (N := 64) (V c main_v61) (V c main_v62) (V c main_v64) :=
  (dat3 V c).arrAt_eq_of_cover 3 _ (fun t _ => flushed3 V c t) cover3

end Cert.KernelIdeal.RegV

end
-- ==== Proof.ChainB.lean ====
/-
  The kernel program's buffers through its second stretch and second region.

  The second stretch gathers the first product's rows along the wrapped source numbers, scales them by the edge
  coefficients and adds them into the destination rows: the reference's first aggregate, operation for operation.
  The second region adds the self term (the product's row times the squared inverse square root of the degree) and
  the bias row, and clips at zero: the reference's hidden features.
-/
import proofs.«153036_j52716428591567_2_alg».proof.Proof.ChainA
import proofs.«153036_j52716428591567_2_alg».proof.Proof.RegionsB
import proofs.«153036_j52716428591567_2_alg».proof.Proof.LibColumns

set_option maxRecDepth 16384

noncomputable section

open scoped BigOperators

namespace Cert.KernelIdeal.ChainV

open Cert.KernelIdeal Cert.KernelIdeal.Gen Cert.KernelIdeal.RegV
open Idealize.ShloMosaic Idealize.ShloMosaic.TcCoe Idealize.SL.Sem Idealize.ShloMosaic.ValueIdx Idealize.ShloMosaic.StableHlo
open Cert.ReferenceIdeal.Read (val_main_v1 val_main_v3 val_main_v10 val_main_v11 val_main_v16 val_main_v23 val_main_v26 val_main_v39 val_main_v40 val_main_v48)

variable (m : (ℓ : Loc nD τ sig) → Buf (Elt Ideal) ℓ) (ρ : Dev nD → PrngReg) (c : Dev nD)

/-! ## After the second stretch -/

/-- The first aggregate. -/
theorem s1_v43 : W3 m ρ c (Proc.devRef .tc main_v43) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v43) = _
  after_results_simp
  rw [c2 m ρ c main_v3 (by simp), s0_v3, c2 m ρ c main_v1 (by simp), s0_v1, c2 m ρ c main_v27 (by simp), s0_v27, P_eq]
  rfl

/-- The bias of the first layer as a row. -/
theorem s1_v44 : W3 m ρ c (Proc.devRef .tc main_v44) = shapeCast S1x64 (m ((c : Thread nD τ).loc main_arg3)) shapeCasts_S64_S1x64 := by
  show StableHlo.after hostOps1 (W2 m ρ c) (Proc.devRef .tc main_v44) = _
  after_results_simp
  rw [c2 m ρ c main_arg3 (by simp), s0_arg m ρ c main_arg3 (by simp)]
  rfl

/-- The second stretch writes none of the buffers the later segments still read. -/
theorem c3 (b : Ref sig .tc) (hb : b = main_v1 ∨ b = main_v3 ∨ b = main_v27 ∨ b = main_v12 ∨ b = main_v30 ∨ b = main_arg4 ∨ b = main_arg5 ∨ b = main_arg6 ∨ b = main_arg7) :
    W3 m ρ c (Proc.devRef .tc b) = W2 m ρ c (Proc.devRef .tc b) := by
  show StableHlo.after hostOps1 (W2 m ρ c) (Proc.devRef .tc b) = _
  rcases hb with rfl | rfl | rfl | rfl | rfl | rfl | rfl | rfl | rfl <;> (after_results_simp <;> rfl)

/-! ## After the second region -/

theorem r1_v45 : W4 m ρ c (Proc.devRef .tc main_v45)
    = combRelu (W3 m ρ c (Proc.devRef .tc main_v43)) (W3 m ρ c (Proc.devRef .tc main_v30)) (W3 m ρ c (Proc.devRef .tc main_v12)) (W3 m ρ c (Proc.devRef .tc main_v44)) :=
  (W4_arr m ρ c 4).trans (final1 (V3 m ρ) c)

/-- The second region's output is the reference's hidden features. -/
theorem H_eq : W4 m ρ c (Proc.devRef .tc main_v45) = val_main_v48 (F := Ideal) (m ((c : Thread nD τ).loc main_arg0)) (m ((c : Thread nD τ).loc main_arg1)) (m ((c : Thread nD τ).loc main_arg2)) (m ((c : Thread nD τ).loc main_arg3)) := by
  rw [r1_v45, s1_v43, s1_v44, c3 m ρ c main_v30 (by simp), P_eq, c3 m ρ c main_v12 (by simp), c2 m ρ c main_v12 (by simp), s0_v12]
  funext i
  obtain ⟨n, k, rfl⟩ : ∃ (n : Fin 100000) (k : Fin 64), i = ix2 n k := ⟨i 0, i 1, eq_ix2 i⟩
  unfold combRelu
  rw [row2_ix2, col2_ix2, Cert.Columns.shapeCast_a_a1_apply, shapeCast_a_1a_apply]
  rw [Cert.ReferenceIdeal.Read.val_main_v48_apply, Cert.ReferenceIdeal.Read.val_main_v47_apply, Cert.ReferenceIdeal.Read.val_main_v44_apply,
    Cert.ReferenceIdeal.Read.val_main_v43_apply, Cert.ReferenceIdeal.Read.val_main_v46_apply, Cert.ReferenceIdeal.Read.val_main_v45_apply,
    Cert.ReferenceIdeal.Read.val_main_v42_apply, Cert.ReferenceIdeal.Read.val_main_v41_apply, Cert.ReferenceIdeal.Read.val_main_call0_v0_apply,
    Cert.ReferenceIdeal.Read.val_main_call0_cst_apply]
  have e1 : Cert.ReferenceIdeal.Read.idx_main_v41 (Cert.ReferenceIdeal.Read.idx_main_v42 (ix2 n k)) = ix1 n :=
    funext fun a => Fin.ext (by match a with | ⟨0, _⟩ => rfl)
  have e2 : Cert.ReferenceIdeal.Read.idx_main_v45 (Cert.ReferenceIdeal.Read.idx_main_v46 (ix2 n k)) = ix1 k :=
    funext fun a => Fin.ext (by match a with | ⟨0, _⟩ => rfl)
  rw [e1, e2, Ideal.ofBits_def, Ideal.ofBits_zero_f32]
  rfl

/-- The second region writes only its own output. -/
theorem c4 (b : Ref sig .tc) (hb : b = main_v1 ∨ b = main_v3 ∨ b = main_v27 ∨ b = main_v12 ∨ b = main_arg4 ∨ b = main_arg5 ∨ b = main_arg6 ∨ b = main_arg7) :
    W4 m ρ c (Proc.devRef .tc b) = W3 m ρ c (Proc.devRef .tc b) := by
  rcases hb with rfl | rfl | rfl | rfl | rfl | rfl | rfl | rfl
  · exact W4_of_ne m ρ c _ (by decide)
  · exact W4_of_ne m ρ c _ (by decide)
  · exact W4_of_ne m ρ c _ (by decide)
  · -- the column of squared inverse square roots is one of the region's inputs: an input array is left as found
    exact (W4_arr m ρ c 2).trans (((dat1 (V3 m ρ) c).arrAt_in 2 rfl _).trans (A_eq1 (V3 m ρ) c 2))
  · exact W4_of_ne m ρ c _ (by decide)
  · exact W4_of_ne m ρ c _ (by decide)
  · exact W4_of_ne m ρ c _ (by decide)
  · exact W4_of_ne m ρ c _ (by decide)

end Cert.KernelIdeal.ChainV

end
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.HostRead.lean ====
/-
  The kernel program's host operations, read at an index.

  Between its regions the program prepares operands on the host: a sum over edges scattered into the rows of a
  table (the aggregation), two weight matrices and two bias vectors laid side by side, a matrix cut into its left
  and right halves, a vector turned into a column or a row. Each lemma below reads one of these at an index given
  by its coordinates, over arbitrary arrays.
-/
import proofs.«153036_j52716428591567_2_alg».proof.Proof.Gen.KernelIdeal
import proofs.«153036_j52716428591567_2_alg».proof.Proof.LibSegment
import proofs.«153036_j52716428591567_2_alg».proof.Proof.LibHostBroadcast
import proofs.«153036_j52716428591567_2_alg».proof.Proof.LibColumns
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HostV

open Cert.KernelIdeal Cert.KernelIdeal.Gen
open Idealize.ShloMosaic Idealize.ShloMosaic.ValueIdx Idealize.ShloMosaic.SegmentIdx

/-! ## A vector as a column, a vector as a row -/

/-- A vector of length 100000 reshaped to a column reads, at `(n, 0)`, the vector at `n`. -/
theorem dcol (v : FVec Ideal S100000 .f32) (n : Fin 100000) :
    shapeCast S100000x1 v shapeCasts_S100000_S100000x1 (ix2 n (0 : Fin 1)) = v (ix1 n) :=
  Cert.Columns.shapeCast_a_a1_apply v _ n 0

/-- A vector of length 64 reshaped to a row reads, at `(0, k)`, the vector at `k`. -/
theorem brow (b : FVec Ideal S64 .f32) (k : Fin 64) :
    shapeCast S1x64 b shapeCasts_S64_S1x64 (ix2 (0 : Fin 1) k) = b (ix1 k) :=
  shapeCast_a_1a_apply b _ 0 k

/-- The zero vector of length 64 reshaped to a row is zero at every entry. -/
theorem zrow (k : Fin 64) :
    shapeCast S1x64 (broadcastInDim S64 ![] bcast_S_S64 (constant (F := Ideal) S_ .f32 0x00000000#32))
      shapeCasts_S64_S1x64 (ix2 (0 : Fin 1) k) = 0 := by
  refine (shapeCast_a_1a_apply _ _ 0 k).trans ?_
  exact Ideal.ofBits_zero_f32

/-! ## The two halves of a matrix of 64 columns -/

/-- The left half: columns `0 … 31`. -/
theorem slice_left (y : FVec Ideal S100000x64 .f32) (n : Fin 100000) (j : Fin 32) :
    extractStridedSlice S100000x32 ![0, 0] y slices_S100000x64_S100000x32_0_0 (ix2 n j)
      = y (ix2 n (⟨j.val, by omega⟩ : Fin 64)) :=
  slice2_axis1_apply 0 y _ n j ⟨j.val, by omega⟩ (Nat.zero_add _).symm

/-- The right half: columns `32 … 63`. -/
theorem slice_right (y : FVec Ideal S100000x64 .f32) (n : Fin 100000) (j : Fin 32) :
    extractStridedSlice S100000x32 ![0, 32] y slices_S100000x64_S100000x32_0_32 (ix2 n j)
      = y (ix2 n (⟨32 + j.val, by omega⟩ : Fin 64)) :=
  slice2_axis1_apply 32 y _ n j ⟨32 + j.val, by omega⟩ rfl

/-! ## The aggregation: a weighted sum over edges, scattered into rows -/

/-- Entry `(n, k)` of the aggregation of `M`: the sum, over the edges whose destination word is `n`, of row
    `src e` (clamped into the table) of `M` at `k`, times the edge's coefficient. -/
theorem agg_apply (M : FVec Ideal S100000x64 .f32) (dst srcw : IVec S1600000 32) (cf : FVec Ideal S1600000 .f32)
    (n : Fin 100000) (k : Fin 64) :
    Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (mulf (Host.gather gather_S100000x64_S1600000x1_S1600000x64_1_0_n_n_0_1_164 M
                (broadcastInDim S1600000x1 ![0] bcast_S1600000_S1600000x1_0 srcw))
              (broadcastInDim S1600000x64 ![0, 1] bcast_S1600000x1_S1600000x64_0_1
                (broadcastInDim S1600000x1 ![0] bcast_S1600000_S1600000x1_0 cf))) (ix2 n k)
      = ∑ e : Fin 1600000, if (dst (ix1 e)).toInt = (n.val : ℤ)
          then M (ix2 (clampRow 100000 (by norm_num) (srcw (ix1 e))) k) * cf (ix1 e) else 0 := by
  refine (scatterAddRows_apply (N := 100000) (E := 1600000) (K := 64) (φ := .f32)
    scatter_S100000x64_S1600000x1_S1600000x64_1_0_0_1_wf _ _ _ n k).trans ?_
  have hz : broadcastInDim S100000x64 ![] bcast_S_S100000x64 (constant (F := Ideal) S_ .f32 0x00000000#32) (ix2 n k)
      = (0 : EReal) := Ideal.ofBits_zero_f32
  rw [hz, zero_add]
  refine Finset.sum_congr rfl fun e _ => ?_
  have hd : broadcastInDim S1600000x1 ![0] bcast_S1600000_S1600000x1_0 dst (ix2 e (0 : Fin 1)) = dst (ix1 e) :=
    Cert.LibHostBroadcast.bcast_a_a1_apply _ rfl _ dst e 0
  have hs : broadcastInDim S1600000x1 ![0] bcast_S1600000_S1600000x1_0 srcw (ix2 e (0 : Fin 1)) = srcw (ix1 e) :=
    Cert.LibHostBroadcast.bcast_a_a1_apply _ rfl _ srcw e 0
  have hc : broadcastInDim S1600000x64 ![0, 1] bcast_S1600000x1_S1600000x64_0_1
      (broadcastInDim S1600000x1 ![0] bcast_S1600000_S1600000x1_0 cf) (ix2 e k) = cf (ix1 e) :=
    (Cert.LibHostBroadcast.bcast_a1_ab_apply _ rfl _ _ e k).trans
      (Cert.LibHostBroadcast.bcast_a_a1_apply _ rfl _ cf e 0)
  have hg : Host.gather gather_S100000x64_S1600000x1_S1600000x64_1_0_n_n_0_1_164 M
      (broadcastInDim S1600000x1 ![0] bcast_S1600000_S1600000x1_0 srcw) (ix2 e k)
      = M (ix2 (clampRow 100000 (by norm_num) (srcw (ix1 e))) k) :=
    (gatherRows_apply (N := 100000) (E := 1600000) (K := 64) (by norm_num)
      gather_S100000x64_S1600000x1_S1600000x64_1_0_n_n_0_1_164_wf M _ e k).trans (by rw [hs])
  rw [hd, mulf_apply, hg, hc]

/-! ## Two weight matrices side by side, two bias vectors end to end -/

/-- Columns `0 … 31` of the joined weights are the first matrix. -/
theorem wcat_left (a b : FVec Ideal S64x32 .f32) (k : Fin 64) (j : Fin 32) :
    concatenate S64x64 1 [⟨S64x32, a⟩, ⟨S64x32, b⟩] concatenates_S64x32_S64x32_S64x64_d1
      (ix2 k (⟨j.val, by omega⟩ : Fin 64)) = a (ix2 k j) :=
  concatenate_pair_apply_left (t := S64x64) (s₁ := S64x32) (s₂ := S64x32) 1 a b concatenates_S64x32_S64x32_S64x64_d1
    (ix2 k (⟨j.val, by omega⟩ : Fin 64)) rfl (ix2 k j) (fun c => by
    match c with
    | ⟨0, _⟩ => rfl
    | ⟨1, _⟩ => rfl)

/-- Columns `32 … 63` of the joined weights are the second matrix. -/
theorem wcat_right (a b : FVec Ideal S64x32 .f32) (k : Fin 64) (j : Fin 32) :
    concatenate S64x64 1 [⟨S64x32, a⟩, ⟨S64x32, b⟩] concatenates_S64x32_S64x32_S64x64_d1
      (ix2 k (⟨32 + j.val, by omega⟩ : Fin 64)) = b (ix2 k j) :=
  concatenate_pair_apply_right (t := S64x64) (s₁ := S64x32) (s₂ := S64x32) 1 a b concatenates_S64x32_S64x32_S64x64_d1
    (ix2 k (⟨32 + j.val, by omega⟩ : Fin 64)) rfl rfl (ix2 k j) (fun c hc => by
    match c with
    | ⟨0, _⟩ => rfl
    | ⟨1, _⟩ => exact absurd rfl hc) (by show j.val + 32 = 32 + j.val; omega)

/-- Entries `0 … 31` of the joined bias row are the first vector. -/
theorem bcat_left (a b : FVec Ideal S32 .f32) (j : Fin 32) :
    shapeCast S1x64 (concatenate S64 0 [⟨S32, a⟩, ⟨S32, b⟩] concatenates_S32_S32_S64_d0) shapeCasts_S64_S1x64
      (ix2 (0 : Fin 1) (⟨j.val, by omega⟩ : Fin 64)) = a (ix1 j) :=
  (shapeCast_a_1a_apply _ _ 0 _).trans
    (concatenate_pair_apply_left (t := S64) (s₁ := S32) (s₂ := S32) 0 a b concatenates_S32_S32_S64_d0
      (ix1 (⟨j.val, by omega⟩ : Fin 64)) rfl (ix1 j) (fun c => by
      match c with
      | ⟨0, _⟩ => rfl))

/-- Entries `32 … 63` of the joined bias row are the second vector. -/
theorem bcat_right (a b : FVec Ideal S32 .f32) (j : Fin 32) :
    shapeCast S1x64 (concatenate S64 0 [⟨S32, a⟩, ⟨S32, b⟩] concatenates_S32_S32_S64_d0) shapeCasts_S64_S1x64
      (ix2 (0 : Fin 1) (⟨32 + j.val, by omega⟩ : Fin 64)) = b (ix1 j) :=
  (shapeCast_a_1a_apply _ _ 0 _).trans
    (concatenate_pair_apply_right (t := S64) (s₁ := S32) (s₂ := S32) 0 a b concatenates_S32_S32_S64_d0
      (ix1 (⟨32 + j.val, by omega⟩ : Fin 64)) rfl rfl (ix1 j) (fun c hc => by
      match c with
      | ⟨0, _⟩ => exact absurd rfl hc) (by show j.val + 32 = 32 + j.val; omega))

end Cert.KernelIdeal.HostV

end
-- ==== Proof.ChainC.lean ====
/-
  The kernel program's buffers from its third stretch to its results.

  The third stretch aggregates the hidden features along the edges (the same gather, scaling and scatter-add as
  before, now of the hidden features); the third region adds the self term and a zero bias row; the fourth stretch
  joins the two output weight matrices side by side and the two biases end to end; the fourth region multiplies
  and adds the joined bias; the last stretch cuts the product back into its two halves.  Read at an entry, the
  first result is
    ∑ k, ((∑ e, [dst e = n] · h (src e, k) · coef e) + h (n, k) · dinv² n + 0) · Wmu (k, j) + bmu j
  and the second the same with the other weight matrix and bias.
-/
import proofs.«153036_j52716428591567_2_alg».proof.Proof.ChainB
import proofs.«153036_j52716428591567_2_alg».proof.Proof.HostRead

set_option maxRecDepth 16384

noncomputable section

open scoped BigOperators

namespace Cert.KernelIdeal.ChainV

open Cert.KernelIdeal Cert.KernelIdeal.Gen Cert.KernelIdeal.RegV Cert.KernelIdeal.HostV
open Idealize.ShloMosaic Idealize.ShloMosaic.TcCoe Idealize.SL.Sem Idealize.ShloMosaic.ValueIdx Idealize.ShloMosaic.StableHlo Idealize.ShloMosaic.SegmentIdx
open Cert.ReferenceIdeal.Read (val_main_v1 val_main_v3 val_main_v10 val_main_v11 val_main_v16 val_main_v23 val_main_v26 val_main_v39 val_main_v40 val_main_v48)

variable (m : (ℓ : Loc nD τ sig) → Buf (Elt Ideal) ℓ) (ρ : Dev nD → PrngReg) (c : Dev nD)

/-- The aggregate of a feature matrix along the edges: rows gathered at the wrapped source numbers, scaled by the
    edge coefficients, added into the rows named by the destination words. -/
def aggK (M : FVec Ideal S100000x64 .f32) (dst srcw : IVec S1600000 32) (cf : FVec Ideal S1600000 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 M (broadcastInDim S1600000x1 ![0] bcast_S1600000_S1600000x1_0 srcw))
          (broadcastInDim S1600000x64 ![0, 1] bcast_S1600000x1_S1600000x64_0_1 (broadcastInDim S1600000x1 ![0] bcast_S1600000_S1600000x1_0 cf)))

/-! ## After the third stretch -/

/-- The aggregate of the hidden features. -/
theorem s2_v58 : W5 m ρ c (Proc.devRef .tc main_v58)
    = aggK (val_main_v48 (F := Ideal) (m ((c : Thread nD τ).loc main_arg0)) (m ((c : Thread nD τ).loc main_arg1)) (m ((c : Thread nD τ).loc main_arg2)) (m ((c : Thread nD τ).loc main_arg3))) (val_main_v3 (F := Ideal) (m ((c : Thread nD τ).loc main_arg1))) (val_main_v16 (F := Ideal) (m ((c : Thread nD τ).loc main_arg1))) (val_main_v26 (F := Ideal) (m ((c : Thread nD τ).loc main_arg1))) := by
  show StableHlo.after hostOps2 (W4 m ρ c) (Proc.devRef .tc main_v58) = _
  after_results_simp
  rw [c4 m ρ c main_v3 (by simp), c3 m ρ c main_v3 (by simp), c2 m ρ c main_v3 (by simp), s0_v3,
    c4 m ρ c main_v1 (by simp), c3 m ρ c main_v1 (by simp), c2 m ρ c main_v1 (by simp), s0_v1,
    c4 m ρ c main_v27 (by simp), c3 m ρ c main_v27 (by simp), c2 m ρ c main_v27 (by simp), s0_v27, H_eq]
  rfl

/-- The zero bias row of the third region. -/
theorem s2_v60 : W5 m ρ c (Proc.devRef .tc main_v60)
    = shapeCast S1x64 (broadcastInDim S64 ![] bcast_S_S64 (constant (F := Ideal) S_ .f32 0x00000000#32)) shapeCasts_S64_S1x64 := by
  show StableHlo.after hostOps2 (W4 m ρ c) (Proc.devRef .tc main_v60) = _
  after_results_simp <;> rfl

theorem c5 (b : Ref sig .tc) (hb : b = main_v45 ∨ b = main_v12 ∨ b = main_arg4 ∨ b = main_arg5 ∨ b = main_arg6 ∨ b = main_arg7) :
    W5 m ρ c (Proc.devRef .tc b) = W4 m ρ c (Proc.devRef .tc b) := by
  show StableHlo.after hostOps2 (W4 m ρ c) (Proc.devRef .tc b) = _
  rcases hb with rfl | rfl | rfl | rfl | rfl | rfl <;> (after_results_simp <;> rfl)

/-! ## After the third region -/

theorem r2_v61 : W6 m ρ c (Proc.devRef .tc main_v61)
    = comb (W5 m ρ c (Proc.devRef .tc main_v58)) (W5 m ρ c (Proc.devRef .tc main_v45)) (W5 m ρ c (Proc.devRef .tc main_v12)) (W5 m ρ c (Proc.devRef .tc main_v60)) :=
  (W6_arr m ρ c 4).trans (final2 (V5 m ρ) c)

theorem c6 (b : Ref sig .tc) (hb : b = main_arg4 ∨ b = main_arg5 ∨ b = main_arg6 ∨ b = main_arg7) :
    W6 m ρ c (Proc.devRef .tc b) = W5 m ρ c (Proc.devRef .tc b) := by
  rcases hb with rfl | rfl | rfl | rfl <;> exact W6_of_ne m ρ c _ (by decide)

/-- The output weights and biases reach the fourth stretch as launched. -/
theorem W6_arg (b : Ref sig .tc) (hb : b = main_arg4 ∨ b = main_arg5 ∨ b = main_arg6 ∨ b = main_arg7) :
    W6 m ρ c (Proc.devRef .tc b) = m ((c : Thread nD τ).loc b) := by
  rcases hb with rfl | rfl | rfl | rfl <;>
    exact (c6 m ρ c _ (by simp)).trans ((c5 m ρ c _ (by simp)).trans ((c4 m ρ c _ (by simp)).trans ((c3 m ρ c _ (by simp)).trans
      ((c2 m ρ c _ (by simp)).trans (s0_arg m ρ c _ (by simp))))))

/-! ## After the fourth stretch -/

theorem s3_v62 : W7 m ρ c (Proc.devRef .tc main_v62)
    = concatenate S64x64 1 [⟨S64x32, (m ((c : Thread nD τ).loc main_arg4))⟩, ⟨S64x32, (m ((c : Thread nD τ).loc main_arg6))⟩] concatenates_S64x32_S64x32_S64x64_d1 := by
  show StableHlo.after hostOps3 (W6 m ρ c) (Proc.devRef .tc main_v62) = _
  after_results
  rw [W6_arg m ρ c main_arg4 (by simp), W6_arg m ρ c main_arg6 (by simp)]

theorem s3_v64 : W7 m ρ c (Proc.devRef .tc main_v64)
    = shapeCast S1x64 (concatenate S64 0 [⟨S32, (m ((c : Thread nD τ).loc main_arg5))⟩, ⟨S32, (m ((c : Thread nD τ).loc main_arg7))⟩] concatenates_S32_S32_S64_d0) shapeCasts_S64_S1x64 := by
  show StableHlo.after hostOps3 (W6 m ρ c) (Proc.devRef .tc main_v64) = _
  after_results
  rw [W6_arg m ρ c main_arg5 (by simp), W6_arg m ρ c main_arg7 (by simp)]
  rfl

theorem c7 : W7 m ρ c (Proc.devRef .tc main_v61) = W6 m ρ c (Proc.devRef .tc main_v61) := by
  show StableHlo.after hostOps3 (W6 m ρ c) (Proc.devRef .tc main_v61) = _
  after_results_simp <;> rfl

/-! ## After the fourth region and the last stretch -/

theorem r3_v65 : W8 m ρ c (Proc.devRef .tc main_v65)
    = mmBias (M := 100000) (K := 64) (N := 64) (W7 m ρ c (Proc.devRef .tc main_v61)) (W7 m ρ c (Proc.devRef .tc main_v62)) (W7 m ρ c (Proc.devRef .tc main_v64)) :=
  (W8_arr m ρ c 3).trans (final3 (V7 m ρ) c)

theorem s4_v66 : W9 m ρ c (Proc.devRef .tc main_v66)
    = extractStridedSlice S100000x32 ![0, 0] (W8 m ρ c (Proc.devRef .tc main_v65)) slices_S100000x64_S100000x32_0_0 := by
  show StableHlo.after hostOps4 (W8 m ρ c) (Proc.devRef .tc main_v66) = _
  after_results_simp <;> rfl

theorem s4_v67 : W9 m ρ c (Proc.devRef .tc main_v67)
    = extractStridedSlice S100000x32 ![0, 32] (W8 m ρ c (Proc.devRef .tc main_v65)) slices_S100000x64_S100000x32_0_32 := by
  show StableHlo.after hostOps4 (W8 m ρ c) (Proc.devRef .tc main_v67) = _
  after_results_simp <;> rfl

/-! ## The results at an entry -/

/-- The third region's output at an entry: the aggregate of the hidden features plus the self term, plus zero. -/
theorem S_apply (n : Fin 100000) (k : Fin 64) :
    W6 m ρ c (Proc.devRef .tc main_v61) (ix2 n k)
      = ((∑ e : Fin 1600000, if (val_main_v3 (F := Ideal) (m ((c : Thread nD τ).loc main_arg1)) (ix1 e)).toInt = (n.val : ℤ)
            then val_main_v48 (F := Ideal) (m ((c : Thread nD τ).loc main_arg0)) (m ((c : Thread nD τ).loc main_arg1)) (m ((c : Thread nD τ).loc main_arg2)) (m ((c : Thread nD τ).loc main_arg3)) (ix2 (clampRow 100000 (by norm_num) (val_main_v16 (F := Ideal) (m ((c : Thread nD τ).loc main_arg1)) (ix1 e))) k)
              * val_main_v26 (F := Ideal) (m ((c : Thread nD τ).loc main_arg1)) (ix1 e) else 0)
          + val_main_v48 (F := Ideal) (m ((c : Thread nD τ).loc main_arg0)) (m ((c : Thread nD τ).loc main_arg1)) (m ((c : Thread nD τ).loc main_arg2)) (m ((c : Thread nD τ).loc main_arg3)) (ix2 n k) * val_main_v40 (F := Ideal) (m ((c : Thread nD τ).loc main_arg1)) (ix1 n)) + 0 := by
  rw [r2_v61]
  unfold comb
  rw [row2_ix2, col2_ix2, s2_v58, s2_v60, zrow, c5 m ρ c main_v45 (by simp), H_eq,
    c5 m ρ c main_v12 (by simp), c4 m ρ c main_v12 (by simp), c3 m ρ c main_v12 (by simp), c2 m ρ c main_v12 (by simp), s0_v12, dcol]
  unfold aggK
  rw [agg_apply]

/-- A feature matrix against an output weight matrix, plus the bias, at an entry. -/
def outForm (S : S100000x64.Idx → EReal) (W : S64x32.Idx → EReal) (b : S32.Idx → EReal) (n : Fin 100000) (j : Fin 32) : EReal :=
  (∑ k : Fin 64, S (ix2 n k) * W (ix2 k j)) + b (ix1 j)

/-- The first result at an entry. -/
theorem out0_apply (n : Fin 100000) (j : Fin 32) :
    W9 m ρ c (Proc.devRef .tc main_v66) (ix2 n j)
      = outForm (W6 m ρ c (Proc.devRef .tc main_v61)) (m ((c : Thread nD τ).loc main_arg4)) (m ((c : Thread nD τ).loc main_arg5)) n j := by
  rw [s4_v66, slice_left, r3_v65]
  unfold mmBias outForm
  rw [row2_ix2, col2_ix2, s3_v64, bcat_left, s3_v62, c7]
  congr 1
  refine Finset.sum_congr rfl fun k _ => ?_
  rw [wcat_left]

/-- The second result at an entry. -/
theorem out1_apply (n : Fin 100000) (j : Fin 32) :
    W9 m ρ c (Proc.devRef .tc main_v67) (ix2 n j)
      = outForm (W6 m ρ c (Proc.devRef .tc main_v61)) (m ((c : Thread nD τ).loc main_arg6)) (m ((c : Thread nD τ).loc main_arg7)) n j := by
  rw [s4_v67, slice_right, r3_v65]
  unfold mmBias outForm
  rw [row2_ix2, col2_ix2, s3_v64, bcat_right, s3_v62, c7]
  congr 1
  refine Finset.sum_congr rfl fun k _ => ?_
  rw [wcat_right]

end Cert.KernelIdeal.ChainV

end
-- ==== Proof.RefForm.lean ====
/-
  The reference program's stages read at an index.

  The reference is a two-layer graph convolution. With dst e the destination word of edge e (read signed, unclamped by
  the scatter) and srcN e, dstN e the wrapped-then-clamped source and destination rows (as the gathers read them):
    deg n  = (Σ_e [dst e = n]) + 1,            dinv n = rsqrt (deg n),
    coef e = dinv (srcN e) * dinv (dstN e),
    P      = x · W1,
    H n k  = max ((Σ_e [dst e = n] P (srcN e) k * coef e) + P n k * (dinv n * dinv n) + b1 k) 0,
    out n j = (Σ_e [dst e = n] (Σ_k H (srcN e) k * W k j) * coef e) + (Σ_k H n k * W k j) * (dinv n * dinv n) + b j.
  Each statement below says one of these of the generated stage functions, at the ideal instance.
-/
import proofs.«153036_j52716428591567_2_alg».proof.Proof.Gen.ReferenceIdeal.Read
import proofs.«153036_j52716428591567_2_alg».proof.Proof.LibSegment
import proofs.«153036_j52716428591567_2_alg».proof.Proof.LibHostBroadcast
import Idealize.ShloMosaic.Lib.IdealHost

noncomputable section

open scoped BigOperators

namespace Cert.RefForm

open Cert.ReferenceIdeal Cert.ReferenceIdeal.Read Idealize.ShloMosaic Idealize.ShloMosaic.ValueIdx Idealize.ShloMosaic.SegmentIdx

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))

/-- The destination word of edge `e`, as the scatters test it (signed, not wrapped, not clamped). -/
def dstW (ei : (⟨S2x1600000, .i32⟩ : BufTy).Contents (Elt Ideal)) (e : Fin 1600000) : BitVec 32 :=
  val_main_v3 (F := Ideal) ei (ix1 e)

/-- The source row of edge `e` as the gathers read it: the word wrapped when negative, then clamped. -/
def srcN (ei : (⟨S2x1600000, .i32⟩ : BufTy).Contents (Elt Ideal)) (e : Fin 1600000) : Fin 100000 :=
  clampRow 100000 (by norm_num) (val_main_v16 (F := Ideal) ei (ix1 e))

/-- The destination row of edge `e` as the gathers read it. -/
def dstN (ei : (⟨S2x1600000, .i32⟩ : BufTy).Contents (Elt Ideal)) (e : Fin 1600000) : Fin 100000 :=
  clampRow 100000 (by norm_num) (val_main_v23 (F := Ideal) ei (ix1 e))

/-- The inverse square root of the degree of node `n`. -/
def dinv (ei : (⟨S2x1600000, .i32⟩ : BufTy).Contents (Elt Ideal)) (n : Fin 100000) : EReal :=
  val_main_v10 (F := Ideal) ei (ix1 n)

/-- The normalisation coefficient of edge `e`. -/
def coef (ei : (⟨S2x1600000, .i32⟩ : BufTy).Contents (Elt Ideal)) (e : Fin 1600000) : EReal :=
  val_main_v26 (F := Ideal) ei (ix1 e)

/-- The first projection `x · W1`. -/
def Pm (x : (⟨S100000x128, .f32⟩ : BufTy).Contents (Elt Ideal)) (W1 : (⟨S128x64, .f32⟩ : BufTy).Contents (Elt Ideal))
    (n : Fin 100000) (k : Fin 64) : EReal :=
  val_main_v11 (F := Ideal) x W1 (ix2 n k)

/-- The hidden layer. -/
def Hm (x : (⟨S100000x128, .f32⟩ : BufTy).Contents (Elt Ideal)) (ei : (⟨S2x1600000, .i32⟩ : BufTy).Contents (Elt Ideal))
    (W1 : (⟨S128x64, .f32⟩ : BufTy).Contents (Elt Ideal)) (b1 : (⟨S64, .f32⟩ : BufTy).Contents (Elt Ideal))
    (n : Fin 100000) (k : Fin 64) : EReal :=
  val_main_v48 (F := Ideal) x ei W1 b1 (ix2 n k)

/-! ## Constants and broadcasts read at coordinates -/

theorem zeroN_at (n : Fin 100000) : val_main_v5 (F := Ideal) (ix1 n) = (0 : EReal) :=
  (val_main_v5_apply _).trans Ideal.ofBits_zero_f32
theorem oneE_at (e : Fin 1600000) : val_main_v4 (F := Ideal) (ix1 e) = (1 : EReal) :=
  (val_main_v4_apply _).trans Ideal.ofBits_one_f32
theorem oneN_at (n : Fin 100000) : val_main_v8 (F := Ideal) (ix1 n) = (1 : EReal) :=
  (val_main_v8_apply _).trans Ideal.ofBits_one_f32
theorem v37_at (n : Fin 100000) (k : Fin 64) : val_main_v37 (F := Ideal) (ix2 n k) = (0 : EReal) :=
  (val_main_v37_apply _).trans Ideal.ofBits_zero_f32
theorem v75_at (n : Fin 100000) (k : Fin 32) : val_main_v75 (F := Ideal) (ix2 n k) = (0 : EReal) :=
  (val_main_v75_apply _).trans Ideal.ofBits_zero_f32
theorem v112_at (n : Fin 100000) (k : Fin 32) : val_main_v112 (F := Ideal) (ix2 n k) = (0 : EReal) :=
  (val_main_v112_apply _).trans Ideal.ofBits_zero_f32
theorem relu0_at (n : Fin 100000) (k : Fin 64) : val_main_call0_v0 (F := Ideal) (ix2 n k) = (0 : EReal) :=
  (val_main_call0_v0_apply _).trans Ideal.ofBits_zero_f32

/-! The index columns: the destination words (four copies), the wrapped source and destination words. -/

theorem v6_at (e : Fin 1600000) : val_main_v6 (F := Ideal) ei (ix2 e (0 : Fin 1)) = dstW ei e := by
  have hi : idx_main_v6 (ix2 e (0 : Fin 1)) = ix1 e := by funext a; match a with | ⟨0, _⟩ => rfl
  rw [val_main_v6_apply, hi]; rfl

theorem v38_at (e : Fin 1600000) : val_main_v38 (F := Ideal) ei (ix2 e (0 : Fin 1)) = dstW ei e := by
  have hi : idx_main_v38 (ix2 e (0 : Fin 1)) = ix1 e := by funext a; match a with | ⟨0, _⟩ => rfl
  rw [val_main_v38_apply, hi]; rfl

theorem v76_at (e : Fin 1600000) : val_main_v76 (F := Ideal) ei (ix2 e (0 : Fin 1)) = dstW ei e := by
  have hi : idx_main_v76 (ix2 e (0 : Fin 1)) = ix1 e := by funext a; match a with | ⟨0, _⟩ => rfl
  rw [val_main_v76_apply, hi]; rfl

theorem v113_at (e : Fin 1600000) : val_main_v113 (F := Ideal) ei (ix2 e (0 : Fin 1)) = dstW ei e := by
  have hi : idx_main_v113 (ix2 e (0 : Fin 1)) = ix1 e := by funext a; match a with | ⟨0, _⟩ => rfl
  rw [val_main_v113_apply, hi]; rfl

theorem v17_at (e : Fin 1600000) : val_main_v17 (F := Ideal) ei (ix2 e (0 : Fin 1)) = val_main_v16 (F := Ideal) ei (ix1 e) := by
  have hi : idx_main_v17 (ix2 e (0 : Fin 1)) = ix1 e := by funext a; match a with | ⟨0, _⟩ => rfl
  rw [val_main_v17_apply, hi]

theorem v24_at (e : Fin 1600000) : val_main_v24 (F := Ideal) ei (ix2 e (0 : Fin 1)) = val_main_v23 (F := Ideal) ei (ix1 e) := by
  have hi : idx_main_v24 (ix2 e (0 : Fin 1)) = ix1 e := by funext a; match a with | ⟨0, _⟩ => rfl
  rw [val_main_v24_apply, hi]

theorem v32_at (e : Fin 1600000) : val_main_v32 (F := Ideal) ei (ix2 e (0 : Fin 1)) = val_main_v31 (F := Ideal) ei (ix1 e) := by
  have hi : idx_main_v32 (ix2 e (0 : Fin 1)) = ix1 e := by funext a; match a with | ⟨0, _⟩ => rfl
  rw [val_main_v32_apply, hi]

theorem v55_at (e : Fin 1600000) : val_main_v55 (F := Ideal) ei (ix2 e (0 : Fin 1)) = val_main_v54 (F := Ideal) ei (ix1 e) := by
  have hi : idx_main_v55 (ix2 e (0 : Fin 1)) = ix1 e := by funext a; match a with | ⟨0, _⟩ => rfl
  rw [val_main_v55_apply, hi]

theorem v62_at (e : Fin 1600000) : val_main_v62 (F := Ideal) ei (ix2 e (0 : Fin 1)) = val_main_v61 (F := Ideal) ei (ix1 e) := by
  have hi : idx_main_v62 (ix2 e (0 : Fin 1)) = ix1 e := by funext a; match a with | ⟨0, _⟩ => rfl
  rw [val_main_v62_apply, hi]

theorem v70_at (e : Fin 1600000) : val_main_v70 (F := Ideal) ei (ix2 e (0 : Fin 1)) = val_main_v69 (F := Ideal) ei (ix1 e) := by
  have hi : idx_main_v70 (ix2 e (0 : Fin 1)) = ix1 e := by funext a; match a with | ⟨0, _⟩ => rfl
  rw [val_main_v70_apply, hi]

theorem v92_at (e : Fin 1600000) : val_main_v92 (F := Ideal) ei (ix2 e (0 : Fin 1)) = val_main_v91 (F := Ideal) ei (ix1 e) := by
  have hi : idx_main_v92 (ix2 e (0 : Fin 1)) = ix1 e := by funext a; match a with | ⟨0, _⟩ => rfl
  rw [val_main_v92_apply, hi]

theorem v99_at (e : Fin 1600000) : val_main_v99 (F := Ideal) ei (ix2 e (0 : Fin 1)) = val_main_v98 (F := Ideal) ei (ix1 e) := by
  have hi : idx_main_v99 (ix2 e (0 : Fin 1)) = ix1 e := by funext a; match a with | ⟨0, _⟩ => rfl
  rw [val_main_v99_apply, hi]

theorem v107_at (e : Fin 1600000) : val_main_v107 (F := Ideal) ei (ix2 e (0 : Fin 1)) = val_main_v106 (F := Ideal) ei (ix1 e) := by
  have hi : idx_main_v107 (ix2 e (0 : Fin 1)) = ix1 e := by funext a; match a with | ⟨0, _⟩ => rfl
  rw [val_main_v107_apply, hi]

/-! The wrapped words are computed several times by the same operations on the same argument. -/

theorem v31_eq : val_main_v31 (F := Ideal) ei = val_main_v16 (F := Ideal) ei := rfl
theorem v54_eq : val_main_v54 (F := Ideal) ei = val_main_v16 (F := Ideal) ei := rfl
theorem v69_eq : val_main_v69 (F := Ideal) ei = val_main_v16 (F := Ideal) ei := rfl
theorem v91_eq : val_main_v91 (F := Ideal) ei = val_main_v16 (F := Ideal) ei := rfl
theorem v106_eq : val_main_v106 (F := Ideal) ei = val_main_v16 (F := Ideal) ei := rfl
theorem v61_eq : val_main_v61 (F := Ideal) ei = val_main_v23 (F := Ideal) ei := rfl
theorem v98_eq : val_main_v98 (F := Ideal) ei = val_main_v23 (F := Ideal) ei := rfl

/-! ## The normalisation: degree, its inverse square root, the edge coefficient -/

theorem v7_at (n : Fin 100000) : val_main_v7 (F := Ideal) ei (ix1 n)
    = ∑ e : Fin 1600000, if (dstW ei e).toInt = (n.val : ℤ) then (1 : EReal) else 0 := by
  unfold val_main_v7
  refine (scatterAddFlat_apply (N := 100000) (E := 1600000) _ (val_main_v5 (F := Ideal)) (val_main_v6 (F := Ideal) ei)
    (val_main_v4 (F := Ideal)) n).trans ?_
  rw [zeroN_at, zero_add]
  refine Finset.sum_congr rfl fun e _ => ?_
  rw [v6_at, oneE_at]

theorem dinv_eq (n : Fin 100000) :
    dinv ei n = Ideal.rsqrt ((∑ e : Fin 1600000, if (dstW ei e).toInt = (n.val : ℤ) then (1 : EReal) else 0) + 1) := by
  unfold dinv
  rw [val_main_v10_apply, val_main_v9_apply, Ideal.hostUnary_rsqrt_def, Ideal.addf_def, v7_at, oneN_at]

theorem v18_at (e : Fin 1600000) : val_main_v18 (F := Ideal) ei (ix1 e) = dinv ei (srcN ei e) := by
  unfold val_main_v18
  refine (gatherFlat_apply (N := 100000) (E := 1600000) (by norm_num) _ (val_main_v10 (F := Ideal) ei) (val_main_v17 (F := Ideal) ei) e).trans ?_
  rw [v17_at]
  unfold dinv srcN
  rfl

theorem v25_at (e : Fin 1600000) : val_main_v25 (F := Ideal) ei (ix1 e) = dinv ei (dstN ei e) := by
  unfold val_main_v25
  refine (gatherFlat_apply (N := 100000) (E := 1600000) (by norm_num) _ (val_main_v10 (F := Ideal) ei) (val_main_v24 (F := Ideal) ei) e).trans ?_
  rw [v24_at]
  unfold dinv dstN
  rfl

theorem coef_eq (e : Fin 1600000) : coef ei e = dinv ei (srcN ei e) * dinv ei (dstN ei e) := by
  unfold coef
  rw [val_main_v26_apply, Ideal.mulf_def, v18_at, v25_at]

/-- The coefficient is computed three times by the same operations on the same argument. -/
theorem v64_eq : val_main_v64 (F := Ideal) ei = val_main_v26 (F := Ideal) ei := by
  unfold val_main_v64 val_main_v26 val_main_v56 val_main_v63 val_main_v18 val_main_v25 val_main_v55 val_main_v62
    val_main_v17 val_main_v24
  rw [v54_eq, v61_eq]
theorem v101_eq : val_main_v101 (F := Ideal) ei = val_main_v26 (F := Ideal) ei := by
  unfold val_main_v101 val_main_v26 val_main_v93 val_main_v100 val_main_v18 val_main_v25 val_main_v92 val_main_v99
    val_main_v17 val_main_v24
  rw [v91_eq, v98_eq]
/-- So is the squared inverse square root of the degree. -/
theorem v78_eq : val_main_v78 (F := Ideal) ei = val_main_v40 (F := Ideal) ei := rfl
theorem v115_eq : val_main_v115 (F := Ideal) ei = val_main_v40 (F := Ideal) ei := rfl

theorem v34_at (e : Fin 1600000) : val_main_v34 (F := Ideal) ei (ix2 e (0 : Fin 1)) = coef ei e := by
  have hi : idx_main_v34 (ix2 e (0 : Fin 1)) = ix1 e := by funext a; match a with | ⟨0, _⟩ => rfl
  rw [val_main_v34_apply, hi]; rfl

theorem v72_at (e : Fin 1600000) : val_main_v72 (F := Ideal) ei (ix2 e (0 : Fin 1)) = coef ei e := by
  have hi : idx_main_v72 (ix2 e (0 : Fin 1)) = ix1 e := by funext a; match a with | ⟨0, _⟩ => rfl
  rw [val_main_v72_apply, hi, v64_eq]; rfl
theorem v109_at (e : Fin 1600000) : val_main_v109 (F := Ideal) ei (ix2 e (0 : Fin 1)) = coef ei e := by
  have hi : idx_main_v109 (ix2 e (0 : Fin 1)) = ix1 e := by funext a; match a with | ⟨0, _⟩ => rfl
  rw [val_main_v109_apply, hi, v101_eq]; rfl

theorem v35_at (e : Fin 1600000) (k : Fin 64) : val_main_v35 (F := Ideal) ei (ix2 e k) = coef ei e := by
  have hi : idx_main_v35 (ix2 e k) = ix2 e (0 : Fin 1) := by funext a; match a with | ⟨0, _⟩ => rfl | ⟨1, _⟩ => rfl
  rw [val_main_v35_apply, hi, v34_at]

theorem v73_at (e : Fin 1600000) (k : Fin 32) : val_main_v73 (F := Ideal) ei (ix2 e k) = coef ei e := by
  have hi : idx_main_v73 (ix2 e k) = ix2 e (0 : Fin 1) := by funext a; match a with | ⟨0, _⟩ => rfl | ⟨1, _⟩ => rfl
  rw [val_main_v73_apply, hi, v72_at]

theorem v110_at (e : Fin 1600000) (k : Fin 32) : val_main_v110 (F := Ideal) ei (ix2 e k) = coef ei e := by
  have hi : idx_main_v110 (ix2 e k) = ix2 e (0 : Fin 1) := by funext a; match a with | ⟨0, _⟩ => rfl | ⟨1, _⟩ => rfl
  rw [val_main_v110_apply, hi, v109_at]

theorem v42_at (n : Fin 100000) (k : Fin 64) : val_main_v42 (F := Ideal) ei (ix2 n k) = dinv ei n * dinv ei n := by
  have hi : idx_main_v42 (ix2 n k) = ix2 n (0 : Fin 1) := by funext a; match a with | ⟨0, _⟩ => rfl | ⟨1, _⟩ => rfl
  have hj : idx_main_v41 (ix2 n (0 : Fin 1)) = ix1 n := by funext a; match a with | ⟨0, _⟩ => rfl
  rw [val_main_v42_apply, hi, val_main_v41_apply, hj, val_main_v40_apply, Ideal.mulf_def]
  unfold dinv
  rfl

theorem v80_at (n : Fin 100000) (k : Fin 32) : val_main_v80 (F := Ideal) ei (ix2 n k) = dinv ei n * dinv ei n := by
  have hi : idx_main_v80 (ix2 n k) = ix2 n (0 : Fin 1) := by funext a; match a with | ⟨0, _⟩ => rfl | ⟨1, _⟩ => rfl
  have hj : idx_main_v79 (ix2 n (0 : Fin 1)) = ix1 n := by funext a; match a with | ⟨0, _⟩ => rfl
  rw [val_main_v80_apply, hi, val_main_v79_apply, hj, v78_eq, val_main_v40_apply, Ideal.mulf_def]
  unfold dinv
  rfl

theorem v117_at (n : Fin 100000) (k : Fin 32) : val_main_v117 (F := Ideal) ei (ix2 n k) = dinv ei n * dinv ei n := by
  have hi : idx_main_v117 (ix2 n k) = ix2 n (0 : Fin 1) := by funext a; match a with | ⟨0, _⟩ => rfl | ⟨1, _⟩ => rfl
  have hj : idx_main_v116 (ix2 n (0 : Fin 1)) = ix1 n := by funext a; match a with | ⟨0, _⟩ => rfl
  rw [val_main_v117_apply, hi, val_main_v116_apply, hj, v115_eq, val_main_v40_apply, Ideal.mulf_def]
  unfold dinv
  rfl

theorem v46_at (b : (⟨S64, .f32⟩ : BufTy).Contents (Elt Ideal)) (n : Fin 100000) (k : Fin 64) :
    val_main_v46 (F := Ideal) b (ix2 n k) = b (ix1 k) := by
  have hi : idx_main_v46 (ix2 n k) = ix2 (0 : Fin 1) k := by funext a; match a with | ⟨0, _⟩ => rfl | ⟨1, _⟩ => rfl
  have hj : idx_main_v45 (ix2 (0 : Fin 1) k) = ix1 k := by funext a; match a with | ⟨0, _⟩ => rfl
  rw [val_main_v46_apply, hi, val_main_v45_apply, hj]

theorem v84_at (b : (⟨S32, .f32⟩ : BufTy).Contents (Elt Ideal)) (n : Fin 100000) (k : Fin 32) :
    val_main_v84 (F := Ideal) b (ix2 n k) = b (ix1 k) := by
  have hi : idx_main_v84 (ix2 n k) = ix2 (0 : Fin 1) k := by funext a; match a with | ⟨0, _⟩ => rfl | ⟨1, _⟩ => rfl
  have hj : idx_main_v83 (ix2 (0 : Fin 1) k) = ix1 k := by funext a; match a with | ⟨0, _⟩ => rfl
  rw [val_main_v84_apply, hi, val_main_v83_apply, hj]

theorem v121_at (b : (⟨S32, .f32⟩ : BufTy).Contents (Elt Ideal)) (n : Fin 100000) (k : Fin 32) :
    val_main_v121 (F := Ideal) b (ix2 n k) = b (ix1 k) := by
  have hi : idx_main_v121 (ix2 n k) = ix2 (0 : Fin 1) k := by funext a; match a with | ⟨0, _⟩ => rfl | ⟨1, _⟩ => rfl
  have hj : idx_main_v120 (ix2 (0 : Fin 1) k) = ix1 k := by funext a; match a with | ⟨0, _⟩ => rfl
  rw [val_main_v121_apply, hi, val_main_v120_apply, hj]

/-! ## The first projection -/

theorem Pm_eq (n : Fin 100000) (k : Fin 64) : Pm x W1 n k = ∑ i : Fin 128, x (ix2 n i) * W1 (ix2 i k) := by
  unfold Pm
  rw [val_main_v11_apply]
  refine Finset.sum_congr rfl fun i _ => ?_
  have hl : lidx_main_v11 (ix2 n k) i = ix2 n i := by funext a; match a with | ⟨0, _⟩ => rfl | ⟨1, _⟩ => rfl
  have hr : ridx_main_v11 (ix2 n k) i = ix2 i k := by funext a; match a with | ⟨0, _⟩ => rfl | ⟨1, _⟩ => rfl
  rw [hl, hr]

/-! ## The hidden layer -/

theorem v33_at (e : Fin 1600000) (k : Fin 64) : val_main_v33 (F := Ideal) x ei W1 (ix2 e k) = Pm x W1 (srcN ei e) k := by
  unfold val_main_v33
  refine (gatherRows_apply (N := 100000) (E := 1600000) (K := 64) (by norm_num) _ (val_main_v11 (F := Ideal) x W1)
    (val_main_v32 (F := Ideal) ei) e k).trans ?_
  rw [v32_at, v31_eq]
  unfold Pm srcN
  rfl

theorem v39_at (n : Fin 100000) (k : Fin 64) : val_main_v39 (F := Ideal) x ei W1 (ix2 n k)
    = ∑ e : Fin 1600000, if (dstW ei e).toInt = (n.val : ℤ) then Pm x W1 (srcN ei e) k * coef ei e else 0 := by
  unfold val_main_v39
  refine (scatterAddRows_apply (N := 100000) (E := 1600000) (K := 64) _ (val_main_v37 (F := Ideal)) (val_main_v38 (F := Ideal) ei)
    (val_main_v36 (F := Ideal) x ei W1) n k).trans ?_
  rw [v37_at, zero_add]
  refine Finset.sum_congr rfl fun e _ => ?_
  rw [v38_at, val_main_v36_apply, Ideal.mulf_def, v33_at, v35_at]

theorem Hm_eq (n : Fin 100000) (k : Fin 64) : Hm x ei W1 b1 n k
    = max (((∑ e : Fin 1600000, if (dstW ei e).toInt = (n.val : ℤ) then Pm x W1 (srcN ei e) k * coef ei e else 0)
        + Pm x W1 n k * (dinv ei n * dinv ei n)) + b1 (ix1 k)) 0 := by
  unfold Hm
  rw [val_main_v48_apply, Ideal.maximumf_def, val_main_v47_apply, Ideal.addf_def, val_main_v44_apply, Ideal.addf_def,
    val_main_v43_apply, Ideal.mulf_def, v39_at, v42_at, v46_at, relu0_at]
  unfold Pm
  rfl

/-! ## The first result -/

theorem v49_at (Wm : (⟨S64x32, .f32⟩ : BufTy).Contents (Elt Ideal)) (n : Fin 100000) (j : Fin 32) :
    val_main_v49 (F := Ideal) x ei W1 b1 Wm (ix2 n j) = ∑ k : Fin 64, Hm x ei W1 b1 n k * Wm (ix2 k j) := by
  rw [val_main_v49_apply]
  refine Finset.sum_congr rfl fun k _ => ?_
  have hl : lidx_main_v49 (ix2 n j) k = ix2 n k := by funext a; match a with | ⟨0, _⟩ => rfl | ⟨1, _⟩ => rfl
  have hr : ridx_main_v49 (ix2 n j) k = ix2 k j := by funext a; match a with | ⟨0, _⟩ => rfl | ⟨1, _⟩ => rfl
  rw [hl, hr]
  unfold Hm
  rfl

theorem v71_at (Wm : (⟨S64x32, .f32⟩ : BufTy).Contents (Elt Ideal)) (e : Fin 1600000) (j : Fin 32) :
    val_main_v71 (F := Ideal) x ei W1 b1 Wm (ix2 e j) = ∑ k : Fin 64, Hm x ei W1 b1 (srcN ei e) k * Wm (ix2 k j) := by
  unfold val_main_v71
  refine (gatherRows_apply (N := 100000) (E := 1600000) (K := 32) (by norm_num) _ (val_main_v49 (F := Ideal) x ei W1 b1 Wm)
    (val_main_v70 (F := Ideal) ei) e j).trans ?_
  rw [v70_at, v69_eq]
  exact v49_at x ei W1 b1 Wm (srcN ei e) j

theorem v77_at (Wm : (⟨S64x32, .f32⟩ : BufTy).Contents (Elt Ideal)) (n : Fin 100000) (j : Fin 32) :
    val_main_v77 (F := Ideal) x ei W1 b1 Wm (ix2 n j)
      = ∑ e : Fin 1600000, if (dstW ei e).toInt = (n.val : ℤ)
          then (∑ k : Fin 64, Hm x ei W1 b1 (srcN ei e) k * Wm (ix2 k j)) * coef ei e else 0 := by
  unfold val_main_v77
  refine (scatterAddRows_apply (N := 100000) (E := 1600000) (K := 32) _ (val_main_v75 (F := Ideal)) (val_main_v76 (F := Ideal) ei)
    (val_main_v74 (F := Ideal) x ei W1 b1 Wm) n j).trans ?_
  rw [v75_at, zero_add]
  refine Finset.sum_congr rfl fun e _ => ?_
  rw [v76_at, val_main_v74_apply, Ideal.mulf_def, v71_at, v73_at]

theorem out0_eq (Wm : (⟨S64x32, .f32⟩ : BufTy).Contents (Elt Ideal)) (bm : (⟨S32, .f32⟩ : BufTy).Contents (Elt Ideal))
    (n : Fin 100000) (j : Fin 32) :
    val_main_v85 (F := Ideal) x ei W1 b1 Wm bm (ix2 n j)
      = ((∑ e : Fin 1600000, if (dstW ei e).toInt = (n.val : ℤ)
            then (∑ k : Fin 64, Hm x ei W1 b1 (srcN ei e) k * Wm (ix2 k j)) * coef ei e else 0)
          + (∑ k : Fin 64, Hm x ei W1 b1 n k * Wm (ix2 k j)) * (dinv ei n * dinv ei n)) + bm (ix1 j) := by
  rw [val_main_v85_apply, Ideal.addf_def, val_main_v82_apply, Ideal.addf_def, val_main_v81_apply, Ideal.mulf_def,
    v77_at, v49_at, v80_at, v84_at]

/-! ## The second result -/

theorem v86_at (Wm : (⟨S64x32, .f32⟩ : BufTy).Contents (Elt Ideal)) (n : Fin 100000) (j : Fin 32) :
    val_main_v86 (F := Ideal) x ei W1 b1 Wm (ix2 n j) = ∑ k : Fin 64, Hm x ei W1 b1 n k * Wm (ix2 k j) := by
  rw [val_main_v86_apply]
  refine Finset.sum_congr rfl fun k _ => ?_
  have hl : lidx_main_v86 (ix2 n j) k = ix2 n k := by funext a; match a with | ⟨0, _⟩ => rfl | ⟨1, _⟩ => rfl
  have hr : ridx_main_v86 (ix2 n j) k = ix2 k j := by funext a; match a with | ⟨0, _⟩ => rfl | ⟨1, _⟩ => rfl
  rw [hl, hr]
  unfold Hm
  rfl

theorem v108_at (Wm : (⟨S64x32, .f32⟩ : BufTy).Contents (Elt Ideal)) (e : Fin 1600000) (j : Fin 32) :
    val_main_v108 (F := Ideal) x ei W1 b1 Wm (ix2 e j) = ∑ k : Fin 64, Hm x ei W1 b1 (srcN ei e) k * Wm (ix2 k j) := by
  unfold val_main_v108
  refine (gatherRows_apply (N := 100000) (E := 1600000) (K := 32) (by norm_num) _ (val_main_v86 (F := Ideal) x ei W1 b1 Wm)
    (val_main_v107 (F := Ideal) ei) e j).trans ?_
  rw [v107_at, v106_eq]
  exact v86_at x ei W1 b1 Wm (srcN ei e) j

theorem v114_at (Wm : (⟨S64x32, .f32⟩ : BufTy).Contents (Elt Ideal)) (n : Fin 100000) (j : Fin 32) :
    val_main_v114 (F := Ideal) x ei W1 b1 Wm (ix2 n j)
      = ∑ e : Fin 1600000, if (dstW ei e).toInt = (n.val : ℤ)
          then (∑ k : Fin 64, Hm x ei W1 b1 (srcN ei e) k * Wm (ix2 k j)) * coef ei e else 0 := by
  unfold val_main_v114
  refine (scatterAddRows_apply (N := 100000) (E := 1600000) (K := 32) _ (val_main_v112 (F := Ideal)) (val_main_v113 (F := Ideal) ei)
    (val_main_v111 (F := Ideal) x ei W1 b1 Wm) n j).trans ?_
  rw [v112_at, zero_add]
  refine Finset.sum_congr rfl fun e _ => ?_
  rw [v113_at, val_main_v111_apply, Ideal.mulf_def, v108_at, v110_at]

theorem out1_eq (Wm : (⟨S64x32, .f32⟩ : BufTy).Contents (Elt Ideal)) (bm : (⟨S32, .f32⟩ : BufTy).Contents (Elt Ideal))
    (n : Fin 100000) (j : Fin 32) :
    val_main_v122 (F := Ideal) x ei W1 b1 Wm bm (ix2 n j)
      = ((∑ e : Fin 1600000, if (dstW ei e).toInt = (n.val : ℤ)
            then (∑ k : Fin 64, Hm x ei W1 b1 (srcN ei e) k * Wm (ix2 k j)) * coef ei e else 0)
          + (∑ k : Fin 64, Hm x ei W1 b1 n k * Wm (ix2 k j)) * (dinv ei n * dinv ei n)) + bm (ix1 j) := by
  rw [val_main_v122_apply, Ideal.addf_def, val_main_v119_apply, Ideal.addf_def, val_main_v118_apply, Ideal.mulf_def,
    v114_at, v86_at, v117_at, v121_at]

end Cert.RefForm

end
-- ==== Proof.Reals.lean ====
/-
  Extended reals that are real numbers.

  `IsReal x` says that the extended real `x` is the image of a real number. The predicate is closed under
  the operations the two programs use (sums, products, maxima, conditionals, finite sums, the reciprocal
  square root of a positive real), and on such values the extended-real arithmetic is the arithmetic of the
  reals, so a matrix product distributes over a weighted sum of rows (`layer_law`).
-/
import Idealize.ShloMosaic.PureOps.Ideal

open scoped BigOperators

namespace Cert.Gcn

/-- An extended real that is (the image of) a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.natCast (n : ℕ) : IsReal (n : EReal) := ⟨(n : ℝ), by norm_cast⟩

theorem IsReal.ne_top {x : EReal} (hx : IsReal x) : x ≠ ⊤ := by
  obtain ⟨r, rfl⟩ := hx
  exact EReal.coe_ne_top r

theorem IsReal.ne_bot {x : EReal} (hx : IsReal x) : x ≠ ⊥ := by
  obtain ⟨r, rfl⟩ := hx
  exact EReal.coe_ne_bot r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

theorem IsReal.ite {p : Prop} [Decidable p] {x y : EReal} (hx : IsReal x) (hy : IsReal y) :
    IsReal (if p then x else y) := by
  split_ifs
  · exact hx
  · exact hy

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact IsReal.add (h a (Finset.mem_insert_self a s))
      (ih (fun i hi => h i (Finset.mem_insert_of_mem hi)))

theorem IsReal.of_ne {x : EReal} (h1 : x ≠ ⊤) (h2 : x ≠ ⊥) : IsReal x := by
  induction x using EReal.rec with
  | bot => exact absurd rfl h2
  | coe r => exact IsReal.coe r
  | top => exact absurd rfl h1

/-- The reciprocal square root of a positive real is a real number. -/
theorem IsReal.rsqrt_of_pos {r : ℝ} (hr : 0 < r) :
    IsReal (Idealize.ShloMosaic.Ideal.rsqrt (r : EReal)) := by
  rw [Idealize.ShloMosaic.Ideal.rsqrt_coe, if_neg (not_lt.mpr hr.le), if_neg hr.ne']
  exact IsReal.coe _

/-- The coercion of a finite sum of reals is the sum of the coercions. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty]; rfl
  | insert a s ha ih =>
    rw [Finset.sum_insert ha, Finset.sum_insert ha, EReal.coe_add, ih]

/-- The coercion of a conditional is the conditional of the coercions. -/
theorem coe_ite (p : Prop) [Decidable p] (a b : ℝ) :
    ((if p then a else b : ℝ) : EReal) = if p then (a : EReal) else (b : EReal) := by
  split_ifs <;> rfl

/-- The identity of `layer_law` over the reals: a matrix product distributes over a weighted sum of rows. -/
theorem layer_law_real {E K : Type*} [Fintype E] [Fintype K] (p : E → Prop) [DecidablePred p]
    (hs : E → K → ℝ) (c : E → ℝ) (hn : K → ℝ) (d : ℝ) (W : K → ℝ) :
    (∑ k, ((∑ e, if p e then hs e k * c e else 0) + hn k * d) * W k)
      = (∑ e, if p e then (∑ k, hs e k * W k) * c e else 0) + (∑ k, hn k * W k) * d := by
  simp only [add_mul, Finset.sum_add_distrib]
  congr 1
  · simp only [Finset.sum_mul]
    rw [Finset.sum_comm]
    refine Finset.sum_congr rfl (fun e _ => ?_)
    by_cases hp : p e
    · simp only [if_pos hp]
      refine Finset.sum_congr rfl (fun k _ => ?_)
      ring
    · simp only [if_neg hp, zero_mul, Finset.sum_const_zero]
  · rw [Finset.sum_mul]
    refine Finset.sum_congr rfl (fun k _ => ?_)
    ring

/-- The law that joins the two programs' second layer: a matrix product distributes over a weighted sum of
rows when every entry is a real number. -/
theorem layer_law {E K : Type*} [Fintype E] [Fintype K] (p : E → Prop) [DecidablePred p]
    (hs : E → K → EReal) (c : E → EReal) (hn : K → EReal) (d : EReal) (W : K → EReal) (b : EReal)
    (hhs : ∀ e k, IsReal (hs e k)) (hc : ∀ e, IsReal (c e)) (hhn : ∀ k, IsReal (hn k)) (hd : IsReal d)
    (hW : ∀ k, IsReal (W k)) :
    (∑ k, ((∑ e, if p e then hs e k * c e else 0) + hn k * d) * W k) + b
      = ((∑ e, if p e then (∑ k, hs e k * W k) * c e else 0) + (∑ k, hn k * W k) * d) + b := by
  choose hs' hhs' using (fun e k => (hhs e k : ∃ r : ℝ, hs e k = (r : EReal)))
  choose c' hc' using (fun e => (hc e : ∃ r : ℝ, c e = (r : EReal)))
  choose hn' hhn' using (fun k => (hhn k : ∃ r : ℝ, hn k = (r : EReal)))
  choose W' hW' using (fun k => (hW k : ∃ r : ℝ, W k = (r : EReal)))
  obtain ⟨d', rfl⟩ := hd
  have e1 : hs = fun e k => ((hs' e k : ℝ) : EReal) := funext fun e => funext fun k => hhs' e k
  have e2 : c = fun e => ((c' e : ℝ) : EReal) := funext hc'
  have e3 : hn = fun k => ((hn' k : ℝ) : EReal) := funext hhn'
  have e4 : W = fun k => ((W' k : ℝ) : EReal) := funext hW'
  subst e1 e2 e3 e4
  have key := congrArg (fun r : ℝ => (r : EReal)) (layer_law_real p hs' c' hn' d' W')
  simp only [EReal.coe_add, EReal.coe_mul, coe_finset_sum, coe_ite, EReal.coe_zero] at key
  rw [key]

end Cert.Gcn
-- ==== Proof.RefReal.lean ====
/-
  Every stage of the reference program is a real number when the inputs are.

  The degree of a node is a count of edges plus one, a positive real; its inverse square root is therefore a real
  number, and so are the edge coefficients. The first projection is a finite sum of products of reals, and the
  hidden layer a maximum of a finite combination of reals and zero.
-/
import proofs.«153036_j52716428591567_2_alg».proof.Proof.RefForm
import proofs.«153036_j52716428591567_2_alg».proof.Proof.Reals

noncomputable section

open scoped BigOperators

namespace Cert.RefForm

open Cert.ReferenceIdeal Cert.ReferenceIdeal.Read Idealize.ShloMosaic Idealize.ShloMosaic.ValueIdx Idealize.ShloMosaic.SegmentIdx
open Cert.Gcn

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))

/-- A count, as an extended real, is a nonnegative real number. -/
theorem count_real {ι : Type*} [Fintype ι] (p : ι → Prop) [DecidablePred p] :
    ∃ r : ℝ, 0 ≤ r ∧ (∑ e, if p e then (1 : EReal) else 0) = (r : EReal) := by
  refine ⟨∑ e, if p e then (1 : ℝ) else 0, Finset.sum_nonneg fun e _ => ?_, ?_⟩
  · split_ifs
    · exact zero_le_one
    · exact le_rfl
  · rw [Cert.Gcn.coe_finset_sum]
    refine Finset.sum_congr rfl fun e _ => ?_
    rw [Cert.Gcn.coe_ite, EReal.coe_one, EReal.coe_zero]

/-- The inverse square root of a degree is a real number: the degree is a count plus one, a positive real. -/
theorem dinv_real (n : Fin 100000) : IsReal (dinv ei n) := by
  rw [dinv_eq]
  obtain ⟨r, hr, h⟩ := count_real (fun e : Fin 1600000 => (dstW ei e).toInt = (n.val : ℤ))
  rw [h]
  have h1 : ((r : EReal) + 1) = ((r + 1 : ℝ) : EReal) := by rw [EReal.coe_add, EReal.coe_one]
  rw [h1]
  exact IsReal.rsqrt_of_pos (by linarith)

/-- An edge coefficient is a real number. -/
theorem coef_real (e : Fin 1600000) : IsReal (coef ei e) := by
  rw [coef_eq]
  exact (dinv_real ei _).mul (dinv_real ei _)

/-- The first projection of real inputs is real. -/
theorem Pm_real (hx : ∀ i, IsReal (x i)) (hW1 : ∀ i, IsReal (W1 i)) (n : Fin 100000) (k : Fin 64) :
    IsReal (Pm x W1 n k) := by
  rw [Pm_eq]
  exact IsReal.sum _ _ fun i _ => (hx _).mul (hW1 _)

/-- The hidden layer of real inputs is real. -/
theorem Hm_real (hx : ∀ i, IsReal (x i)) (hW1 : ∀ i, IsReal (W1 i)) (hb1 : ∀ i, IsReal (b1 i))
    (n : Fin 100000) (k : Fin 64) : IsReal (Hm x ei W1 b1 n k) := by
  rw [Hm_eq]
  refine IsReal.max (IsReal.add (IsReal.add (IsReal.sum _ _ fun e _ => ?_) ?_) (hb1 _)) IsReal.zero
  · exact IsReal.ite ((Pm_real x W1 hx hW1 _ k).mul (coef_real ei e)) IsReal.zero
  · exact (Pm_real x W1 hx hW1 n k).mul ((dinv_real ei n).mul (dinv_real ei n))

end Cert.RefForm

end
-- ==== Proof.Entry.lean ====
/-
  The two programs' results agree entry by entry.

  The reference multiplies the hidden layer by the weights first and aggregates the product; the other program
  aggregates the hidden layer first and multiplies the aggregate. Every quantity involved is a real number, so the
  matrix product distributes over the weighted sum of rows and the two orders give the same entry.
-/
import proofs.«153036_j52716428591567_2_alg».proof.Proof.RefForm
import proofs.«153036_j52716428591567_2_alg».proof.Proof.RefReal
import proofs.«153036_j52716428591567_2_alg».proof.Proof.Reals

noncomputable section

open scoped BigOperators

namespace Cert.RefForm

open Cert.ReferenceIdeal Cert.ReferenceIdeal.Read Idealize.ShloMosaic Idealize.ShloMosaic.ValueIdx Idealize.ShloMosaic.SegmentIdx
open Cert.Gcn

variable (x : (⟨S100000x128, .f32⟩ : BufTy).Contents (Elt Ideal)) (ei : (⟨S2x1600000, .i32⟩ : BufTy).Contents (Elt Ideal))
  (W1 : (⟨S128x64, .f32⟩ : BufTy).Contents (Elt Ideal)) (b1 : (⟨S64, .f32⟩ : BufTy).Contents (Elt Ideal))
  (Wm : (⟨S64x32, .f32⟩ : BufTy).Contents (Elt Ideal)) (bm : (⟨S32, .f32⟩ : BufTy).Contents (Elt Ideal))

/-- The aggregate-then-multiply form of an output entry, in the reference's own stage names, equals the
    multiply-then-aggregate form. -/
theorem entry_law (hx : ∀ i, IsReal (x i)) (hW1 : ∀ i, IsReal (W1 i)) (hb1 : ∀ i, IsReal (b1 i))
    (hWm : ∀ i, IsReal (Wm i)) (n : Fin 100000) (j : Fin 32) :
    (∑ k : Fin 64, ((∑ e : Fin 1600000, if (dstW ei e).toInt = (n.val : ℤ)
          then Hm x ei W1 b1 (srcN ei e) k * coef ei e else 0)
        + Hm x ei W1 b1 n k * (dinv ei n * dinv ei n)) * Wm (ix2 k j)) + bm (ix1 j)
      = ((∑ e : Fin 1600000, if (dstW ei e).toInt = (n.val : ℤ)
            then (∑ k : Fin 64, Hm x ei W1 b1 (srcN ei e) k * Wm (ix2 k j)) * coef ei e else 0)
          + (∑ k : Fin 64, Hm x ei W1 b1 n k * Wm (ix2 k j)) * (dinv ei n * dinv ei n)) + bm (ix1 j) :=
  Cert.Gcn.layer_law (p := fun e => (dstW ei e).toInt = (n.val : ℤ)) (fun e k => Hm x ei W1 b1 (srcN ei e) k)
    (coef ei) (fun k => Hm x ei W1 b1 n k) (dinv ei n * dinv ei n) (fun k => Wm (ix2 k j)) (bm (ix1 j))
    (fun e k => Hm_real x ei W1 b1 hx hW1 hb1 (srcN ei e) k) (coef_real ei)
    (fun k => Hm_real x ei W1 b1 hx hW1 hb1 n k) ((dinv_real ei n).mul (dinv_real ei n)) (fun k => hWm _)

theorem entry0 (hx : ∀ i, IsReal (x i)) (hW1 : ∀ i, IsReal (W1 i)) (hb1 : ∀ i, IsReal (b1 i))
    (hWm : ∀ i, IsReal (Wm i)) (n : Fin 100000) (j : Fin 32) :
    (∑ k : Fin 64, (((∑ e : Fin 1600000, if (val_main_v3 (F := Ideal) ei (ix1 e)).toInt = (n.val : ℤ)
            then val_main_v48 (F := Ideal) x ei W1 b1 (ix2 (clampRow 100000 (by norm_num) (val_main_v16 (F := Ideal) ei (ix1 e))) k) * val_main_v26 (F := Ideal) ei (ix1 e) else 0)
          + val_main_v48 (F := Ideal) x ei W1 b1 (ix2 n k) * val_main_v40 (F := Ideal) ei (ix1 n)) + 0) * Wm (ix2 k j)) + bm (ix1 j)
      = val_main_v85 (F := Ideal) x ei W1 b1 Wm bm (ix2 n j) := by
  -- the right side is the reference's closed form, which the law turns into the left side's shape
  refine Eq.trans ?_ ((entry_law x ei W1 b1 Wm bm hx hW1 hb1 hWm n j).trans (out0_eq x ei W1 b1 Wm bm n j).symm)
  -- the squared inverse square root of the degree, spelt as a product; then the stage names, unfolded
  rw [val_main_v40_apply, Ideal.mulf_def]
  unfold dstW srcN Hm coef dinv
  refine congrArg (fun t => t + bm (ix1 j)) (Finset.sum_congr rfl fun k _ => ?_)
  refine congrArg (fun t => t * Wm (ix2 k j)) ?_
  exact add_zero _

theorem entry1 (hx : ∀ i, IsReal (x i)) (hW1 : ∀ i, IsReal (W1 i)) (hb1 : ∀ i, IsReal (b1 i))
    (hWm : ∀ i, IsReal (Wm i)) (n : Fin 100000) (j : Fin 32) :
    (∑ k : Fin 64, (((∑ e : Fin 1600000, if (val_main_v3 (F := Ideal) ei (ix1 e)).toInt = (n.val : ℤ)
            then val_main_v48 (F := Ideal) x ei W1 b1 (ix2 (clampRow 100000 (by norm_num) (val_main_v16 (F := Ideal) ei (ix1 e))) k) * val_main_v26 (F := Ideal) ei (ix1 e) else 0)
          + val_main_v48 (F := Ideal) x ei W1 b1 (ix2 n k) * val_main_v40 (F := Ideal) ei (ix1 n)) + 0) * Wm (ix2 k j)) + bm (ix1 j)
      = val_main_v122 (F := Ideal) x ei W1 b1 Wm bm (ix2 n j) := by
  -- the right side is the reference's closed form, which the law turns into the left side's shape
  refine Eq.trans ?_ ((entry_law x ei W1 b1 Wm bm hx hW1 hb1 hWm n j).trans (out1_eq x ei W1 b1 Wm bm n j).symm)
  -- the squared inverse square root of the degree, spelt as a product; then the stage names, unfolded
  rw [val_main_v40_apply, Ideal.mulf_def]
  unfold dstW srcN Hm coef dinv
  refine congrArg (fun t => t + bm (ix1 j)) (Finset.sum_congr rfl fun k _ => ?_)
  refine congrArg (fun t => t * Wm (ix2 k j)) ?_
  exact add_zero _

end Cert.RefForm

end
-- ==== Proof.PreReal.lean ====
/-
  The precondition "every float input is finite", read back: every entry of every float input is a real
  number.

  The printed predicate is the conjunction of seven tests `all (|a| < +∞)`, one per float input. A
  conjunction of one-bit words that is 1 has every conjunct 1; a reduction by `and` over all axes that is 1
  met a 1 at every index; and an extended real `x` with `max x (-x) < ⊤` is neither `⊤` nor `⊥`.
-/
import proofs.«153036_j52716428591567_2_alg».proof.Pre_finite_inputs
import proofs.«153036_j52716428591567_2_alg».proof.Proof.Reals
import Idealize.ShloMosaic.Lib.ReduceAll
import Idealize.ShloMosaic.Lib.ValueIdx

namespace Cert.Gcn

open Idealize.ShloMosaic Cert.Pre_finite_inputs

/-- The shape with no axis has one index. -/
instance subsingleton_scalar_idx : Subsingleton S_.Idx := ⟨fun _ _ => funext fun d => d.elim0⟩

/-- The pattern `0x7F800000` of the 32-bit format denotes `+∞`. -/
theorem ofBits_inf : Ideal.ofBits .f32 0x7F800000#32 = (⊤ : EReal) := by
  simp [Ideal.ofBits, Ideal.ieee]

/-- An extended real whose absolute value is below `+∞` is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact IsReal.coe r
  | top => simp [Ideal.cmp] at h

/-- Under the printed precondition every entry of every float input is a real number. -/
theorem pre_real [Cert.Pre_finite_inputs.Facts]
    (a0 : FVec Ideal S100000x128 .f32) (a1 : IVec S2x1600000 32) (a2 : FVec Ideal S128x64 .f32)
    (a3 : FVec Ideal S64 .f32) (a4 : FVec Ideal S64x32 .f32) (a5 : FVec Ideal S32 .f32)
    (a6 : FVec Ideal S64x32 .f32) (a7 : FVec Ideal S32 .f32)
    (h : Cert.Pre_finite_inputs.fn (F := Idealize.ShloMosaic.Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧
      (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e2⟩, e3⟩, e4⟩, e5⟩, e6⟩, e7⟩ := h0
  exact ⟨fun i => isReal_of_abs_lt_inf (a0 i) (Host.reduce_andi_all _ _ _ _ _ e0 i),
    fun i => isReal_of_abs_lt_inf (a2 i) (Host.reduce_andi_all _ _ _ _ _ e2 i),
    fun i => isReal_of_abs_lt_inf (a3 i) (Host.reduce_andi_all _ _ _ _ _ e3 i),
    fun i => isReal_of_abs_lt_inf (a4 i) (Host.reduce_andi_all _ _ _ _ _ e4 i),
    fun i => isReal_of_abs_lt_inf (a5 i) (Host.reduce_andi_all _ _ _ _ _ e5 i),
    fun i => isReal_of_abs_lt_inf (a6 i) (Host.reduce_andi_all _ _ _ _ _ e6 i),
    fun i => isReal_of_abs_lt_inf (a7 i) (Host.reduce_andi_all _ _ _ _ _ e7 i)⟩

end Cert.Gcn
-- ==== Proof.Bridge.lean ====
/-
  The two programs' results are one array.

  At an entry `(n, j)` the kernel program's first result reads
    ∑ k, ((∑ e, [dst e = n] · h (src e, k) · coef e) + h (n, k) · dinv² n + 0) · Wmu (k, j) + bmu j
  and the reference's
    (∑ e, [dst e = n] · (∑ k, h (src e, k) · Wmu (k, j)) · coef e) + (∑ k, h (n, k) · Wmu (k, j)) · dinv² n + bmu j
  over the same hidden features `h`, coefficients and degrees (each a stage of the reference program, which the
  kernel program's buffers hold too).  Under the precondition every input is a real number, hence so is every
  quantity above, and the two are equal by distributing the matrix product over the sum.
-/
import proofs.«153036_j52716428591567_2_alg».proof.Defs
import proofs.«153036_j52716428591567_2_alg».proof.Proof.Gen.KernelIdeal
import proofs.«153036_j52716428591567_2_alg».proof.Proof.Gen.ReferenceIdeal
import proofs.«153036_j52716428591567_2_alg».proof.Proof.Gen.Pre_finite_inputs
import proofs.«153036_j52716428591567_2_alg».proof.Proof.ChainC
import proofs.«153036_j52716428591567_2_alg».proof.Proof.Entry
import proofs.«153036_j52716428591567_2_alg».proof.Proof.PreReal

set_option maxRecDepth 16384

noncomputable section

open scoped BigOperators

namespace Cert.Proof.Bridge

open Idealize.ShloMosaic Idealize.ShloMosaic.TcCoe Idealize.SL.Sem Idealize.ShloMosaic.ValueIdx
open Cert.KernelIdeal Cert.KernelIdeal.Gen Cert.KernelIdeal.ChainV Cert.Gcn

variable (m : (ℓ : Loc nD τ sig) → Buf (Elt Ideal) ℓ) (ρ : Dev nD → PrngReg) (c : Dev nD)

/-- The result form with the feature matrix's row `n` replaced by what it reads as. -/
theorem outForm_congr (S : S100000x64.Idx → EReal) (S' : Fin 64 → EReal) (W : S64x32.Idx → EReal) (b : S32.Idx → EReal)
    (n : Fin 100000) (j : Fin 32) (h : ∀ k : Fin 64, S (ix2 n k) = S' k) :
    outForm S W b n j = (∑ k : Fin 64, S' k * W (ix2 k j)) + b (ix1 j) := by
  unfold outForm
  congr 1
  exact Finset.sum_congr rfl fun k _ => by rw [h k]

/-- Under the precondition the float arguments are arrays of real numbers. -/
theorem args_real (hpre : Cert.Pre_KernelIdeal m) :
    (∀ i, IsReal (m ((c.tc : Thread nD τ).loc main_arg0) i)) ∧ (∀ i, IsReal (m ((c.tc : Thread nD τ).loc main_arg2) i))
    ∧ (∀ i, IsReal (m ((c.tc : Thread nD τ).loc main_arg3) i)) ∧ (∀ i, IsReal (m ((c.tc : Thread nD τ).loc main_arg4) i))
    ∧ (∀ i, IsReal (m ((c.tc : Thread nD τ).loc main_arg5) i)) ∧ (∀ i, IsReal (m ((c.tc : Thread nD τ).loc main_arg6) i))
    ∧ (∀ i, IsReal (m ((c.tc : Thread nD τ).loc main_arg7) i)) :=
  Cert.Gcn.pre_real _ _ _ _ _ _ _ _ (hpre c)

/-- The kernel program's first result is the reference's first stage result of the same arguments. -/
theorem result0 (hpre : Cert.Pre_KernelIdeal m) :
    W9 m ρ c (Proc.devRef .tc main_v66)
      = Cert.ReferenceIdeal.Read.val_main_v85 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) := by
  obtain ⟨h0, h2, h3, h4, -, -, -⟩ := args_real m c hpre
  funext i
  obtain ⟨n, j, rfl⟩ : ∃ (n : Fin 100000) (j : Fin 32), i = ix2 n j := ⟨i 0, i 1, eq_ix2 i⟩
  rw [out0_apply]
  refine (outForm_congr _ _ _ _ n j (fun k => S_apply m ρ c n k)).trans ?_
  exact Cert.RefForm.entry0 _ _ _ _ _ _ h0 h2 h3 h4 n j

/-- The kernel program's second result is the reference's second stage result of the same arguments. -/
theorem result1 (hpre : Cert.Pre_KernelIdeal m) :
    W9 m ρ c (Proc.devRef .tc main_v67)
      = Cert.ReferenceIdeal.Read.val_main_v122 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg6)) (m ((c.tc : Thread nD τ).loc main_arg7)) := by
  obtain ⟨h0, h2, h3, -, -, h6, -⟩ := args_real m c hpre
  funext i
  obtain ⟨n, j, rfl⟩ : ∃ (n : Fin 100000) (j : Fin 32), i = ix2 n j := ⟨i 0, i 1, eq_ix2 i⟩
  rw [out1_apply]
  refine (outForm_congr _ _ _ _ n j (fun k => S_apply m ρ c n k)).trans ?_
  exact Cert.RefForm.entry1 _ _ _ _ _ _ h0 h2 h3 h6 n j

end Cert.Proof.Bridge

end
-- ==== Proof.lean ====
/-
  The certificate's five claims.

  The three frames: the kernel program's two generated frames, and the reference's generated run with its results
  dropped.  The idealization rewrote nothing, so `preserves` asks nothing.  The value claim: the kernel program
  runs to its two results at the last segment boundary's contents (the generated frame's run, re-posted), the
  reference to its composed stages; under the precondition the two are the same arrays (module Bridge).
-/
import proofs.«153036_j52716428591567_2_alg».proof.Defs
import proofs.«153036_j52716428591567_2_alg».proof.Proof.Gen.Kernel
import proofs.«153036_j52716428591567_2_alg».proof.Proof.Gen.Kernel.Skeleton
import proofs.«153036_j52716428591567_2_alg».proof.Proof.Gen.Kernel.Launch
import proofs.«153036_j52716428591567_2_alg».proof.Proof.Gen.Kernel.Points
import proofs.«153036_j52716428591567_2_alg».proof.Proof.Gen.Kernel.Frame
import proofs.«153036_j52716428591567_2_alg».proof.Proof.Gen.KernelIdeal
import proofs.«153036_j52716428591567_2_alg».proof.Proof.Gen.KernelIdeal.Skeleton
import proofs.«153036_j52716428591567_2_alg».proof.Proof.Gen.KernelIdeal.Launch
import proofs.«153036_j52716428591567_2_alg».proof.Proof.Gen.KernelIdeal.Points
import proofs.«153036_j52716428591567_2_alg».proof.Proof.Gen.KernelIdeal.Frame
import proofs.«153036_j52716428591567_2_alg».proof.Proof.Gen.ReferenceIdeal
import proofs.«153036_j52716428591567_2_alg».proof.Proof.Gen.Pre_finite_inputs
import proofs.«153036_j52716428591567_2_alg».proof.Proof.Gen.ReferenceIdeal.Run
import proofs.«153036_j52716428591567_2_alg».proof.Proof.Gen.ReferenceIdeal.Read
import proofs.«153036_j52716428591567_2_alg».proof.Proof.KRun
import proofs.«153036_j52716428591567_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs run, and end with the same two result arrays: the kernel program's own, which under the
    precondition are the reference's stages of the arguments the two memories share. -/
theorem algebraic : Cert.algebraic_KernelIdeal_ReferenceIdeal := by
  intro m ρ m' ρ' hpre hagree
  refine ⟨fun c => Cert.KernelIdeal.Gen.W9 m ρ c (Proc.devRef .tc Cert.KernelIdeal.main_v66),
    fun c => Cert.KernelIdeal.Gen.W9 m ρ c (Proc.devRef .tc Cert.KernelIdeal.main_v67),
    Cert.KernelIdeal.RunV.run_values m ρ, ?_⟩
  refine (θ_run Cert.ReferenceIdeal.defs _ _).mono (fun _ h c => ?_) (Cert.ReferenceIdeal.Value.run (F := Ideal) m' ρ')
  obtain ⟨h0, h1, hargs⟩ := h c
  obtain ⟨a0, a1, a2, a3, a4, a5, a6, a7⟩ := hagree c
  refine ⟨h0.trans ?_, h1.trans ?_, hargs⟩
  · rw [Cert.ReferenceIdeal.Read.val_main_v85_eq, a0, a1, a2, a3, a4, a5]
    exact (Cert.Proof.Bridge.result0 m ρ c hpre).symm
  · rw [Cert.ReferenceIdeal.Read.val_main_v122_eq, a0, a1, a2, a3, a6, a7]
    exact (Cert.Proof.Bridge.result1 m ρ c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
